-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x49x128 : Shape := ⟨4, ![8, 16, 49, 128]⟩
abbrev S8x256x128 : Shape := ⟨3, ![8, 256, 128]⟩
abbrev S64x128 : Shape := ⟨2, ![64, 128]⟩
abbrev S64 : Shape := ⟨1, ![64]⟩
abbrev S_ : Shape := ⟨0, ![]⟩

class Facts : Prop where
  bcast_S_S8x16x49x128 : S_.BroadcastsInDim S8x16x49x128 (![] : Fin 0 → Fin S8x16x49x128.rank)
  reducesTo_S8x16x49x128_S_d0_1_2_3 : S8x16x49x128.ReducesTo [0, 1, 2, 3] S_
  h_S_ : 0 < S_.numel
  bcast_S_S8x256x128 : S_.BroadcastsInDim S8x256x128 (![] : Fin 0 → Fin S8x256x128.rank)
  reducesTo_S8x256x128_S_d0_1_2 : S8x256x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x16x49x128 .f32) (main_arg1 : FVec F S8x256x128 .f32) (main_arg2 : FVec F S64x128 .f32) (main_arg3 : FVec F S64 .f32) (main_arg4 : IVec S64 32) : IVec S_ 1 :=
  let main_v0 : FVec F S8x16x49x128 .f32 := Host.absf main_arg0
  let main_cst : FVec F S_ .f32 := constant S_ .f32 0x7F800000#32
  let main_v1 : FVec F S8x16x49x128 .f32 := broadcastInDim S8x16x49x128 ![] bcast_S_S8x16x49x128 main_cst
  let main_v2 : IVec S8x16x49x128 1 := cmpf .olt main_v0 main_v1
  let main_c : IVec S_ 1 := constantI S_ 1 1#1
  let main_v3 : IVec S_ 1 := (fun x v => Host.reduce IntOp.andi x v reducesTo_S8x16x49x128_S_d0_1_2_3 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x16x49x128 : Shape := ⟨4, ![8, 16, 49, 128]⟩
abbrev S8x256x128 : Shape := ⟨3, ![8, 256, 128]⟩
abbrev S64x128 : Shape := ⟨2, ![64, 128]⟩
abbrev S64 : Shape := ⟨1, ![64]⟩
abbrev S8x784x128 : Shape := ⟨3, ![8, 784, 128]⟩
abbrev S_ : Shape := ⟨0, ![]⟩
abbrev S64x1 : Shape := ⟨2, ![64, 1]⟩
abbrev S8x64x128 : Shape := ⟨3, ![8, 64, 128]⟩
abbrev S1x64 : Shape := ⟨2, ![1, 64]⟩
abbrev S8x784x8192 : Shape := ⟨3, ![8, 784, 8192]⟩
abbrev S1x392x128 : Shape := ⟨3, ![1, 392, 128]⟩
abbrev S1x64x128 : Shape := ⟨3, ![1, 64, 128]⟩
abbrev S1x392x8192 : Shape := ⟨3, ![1, 392, 8192]⟩
abbrev S392x128 : Shape := ⟨2, ![392, 128]⟩
abbrev S392 : Shape := ⟨1, ![392]⟩
abbrev S392x1 : Shape := ⟨2, ![392, 1]⟩
abbrev S128x64 : Shape := ⟨2, ![128, 64]⟩
abbrev S392x64 : Shape := ⟨2, ![392, 64]⟩
abbrev S1x128 : Shape := ⟨2, ![1, 128]⟩
abbrev S8x16x49x8192 : Shape := ⟨4, ![8, 16, 49, 8192]⟩

abbrev nBuf : Space → Nat
  | .hbm => 18
  | .vmem => 8
  | .smem => 0
  | _ => 0

abbrev bufTy : (tb : Table) → Fin (tcTables nBuf tb) → BufTy
  | .hbm, ⟨0, _⟩ => ⟨S8x16x49x128, .f32⟩
  | .hbm, ⟨1, _⟩ => ⟨S8x256x128, .f32⟩
  | .hbm, ⟨2, _⟩ => ⟨S64x128, .f32⟩
  | .hbm, ⟨3, _⟩ => ⟨S64, .f32⟩
  | .hbm, ⟨4, _⟩ => ⟨S64, .i32⟩
  | .hbm, ⟨5, _⟩ => ⟨S8x784x128, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S8x64x128, .f32⟩
  | .hbm, ⟨15, _⟩ => ⟨S1x64, .f32⟩
  | .hbm, ⟨16, _⟩ => ⟨S8x784x8192, .f32⟩
  | .hbm, ⟨17, _⟩ => ⟨S8x16x49x8192, .f32⟩
  | .local _ .vmem, ⟨0, _⟩ => ⟨S1x392x128, .f32⟩
  | .local _ .vmem, ⟨1, _⟩ => ⟨S1x392x128, .f32⟩
  | .local _ .vmem, ⟨2, _⟩ => ⟨S1x64x128, .f32⟩
  | .local _ .vmem, ⟨3, _⟩ => ⟨S1x64x128, .f32⟩
  | .local _ .vmem, ⟨4, _⟩ => ⟨S64x128, .f32⟩
  | .local _ .vmem, ⟨5, _⟩ => ⟨S1x64, .f32⟩
  | .local _ .vmem, ⟨6, _⟩ => ⟨S1x392x8192, .f32⟩
  | .local _ .vmem, ⟨7, _⟩ => ⟨S1x392x8192, .f32⟩
  | _, _ => ⟨S8x16x49x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x392x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x392x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x16x49x128_S8x784x128 : S8x16x49x128.ShapeCasts S8x784x128
  bcast_S_S64 : S_.BroadcastsInDim S64 (![] : Fin 0 → Fin S64.rank)
  bcast_S64_S64x1_0 : S64.BroadcastsInDim S64x1 (![0] : Fin 1 → Fin S64x1.rank)
  shapeCasts_S64_S1x64 : S64.ShapeCasts S1x64
  inb_S1x392x128_S1x392x128_0_0_0 : ∀ a, (![0, 0, 0] : Fin 3 → Nat) a + S1x392x128.size a ≤ S1x392x128.size a
  h_S1x392x128 : 0 < S1x392x128.numel
  shapeCasts_S1x392x128_S392x128 : S1x392x128.ShapeCasts S392x128
  reduces_S392x128_S392 : S392x128.Reduces [1] S392
  shapeCasts_S392_S392x1 : S392.ShapeCasts S392x1
  broadcasts_S392x1_S392x128 : S392x1.Broadcasts S392x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S392x64 : S1x64.Broadcasts S392x64
  reduces_S392x64_S392 : S392x64.Reduces [1] S392
  broadcasts_S392x1_S392x64 : S392x1.Broadcasts S392x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  slices_S64x128_o0_0_S1x128 : S64x128.Slices ![0, 0] S1x128
  broadcasts_S1x128_S392x128 : S1x128.Broadcasts S392x128
  slices_S392x64_o0_0_S392x1 : S392x64.Slices ![0, 0] S392x1
  slices_S64x128_o1_0_S1x128 : S64x128.Slices ![1, 0] S1x128
  slices_S392x64_o0_1_S392x1 : S392x64.Slices ![0, 1] S392x1
  slices_S64x128_o2_0_S1x128 : S64x128.Slices ![2, 0] S1x128
  slices_S392x64_o0_2_S392x1 : S392x64.Slices ![0, 2] S392x1
  slices_S64x128_o3_0_S1x128 : S64x128.Slices ![3, 0] S1x128
  slices_S392x64_o0_3_S392x1 : S392x64.Slices ![0, 3] S392x1
  slices_S64x128_o4_0_S1x128 : S64x128.Slices ![4, 0] S1x128
  slices_S392x64_o0_4_S392x1 : S392x64.Slices ![0, 4] S392x1
  slices_S64x128_o5_0_S1x128 : S64x128.Slices ![5, 0] S1x128
  slices_S392x64_o0_5_S392x1 : S392x64.Slices ![0, 5] S392x1
  slices_S64x128_o6_0_S1x128 : S64x128.Slices ![6, 0] S1x128
  slices_S392x64_o0_6_S392x1 : S392x64.Slices ![0, 6] S392x1
  slices_S64x128_o7_0_S1x128 : S64x128.Slices ![7, 0] S1x128
  slices_S392x64_o0_7_S392x1 : S392x64.Slices ![0, 7] S392x1
  slices_S64x128_o8_0_S1x128 : S64x128.Slices ![8, 0] S1x128
  slices_S392x64_o0_8_S392x1 : S392x64.Slices ![0, 8] S392x1
  slices_S64x128_o9_0_S1x128 : S64x128.Slices ![9, 0] S1x128
  slices_S392x64_o0_9_S392x1 : S392x64.Slices ![0, 9] S392x1
  slices_S64x128_o10_0_S1x128 : S64x128.Slices ![10, 0] S1x128
  slices_S392x64_o0_10_S392x1 : S392x64.Slices ![0, 10] S392x1
  slices_S64x128_o11_0_S1x128 : S64x128.Slices ![11, 0] S1x128
  slices_S392x64_o0_11_S392x1 : S392x64.Slices ![0, 11] S392x1
  slices_S64x128_o12_0_S1x128 : S64x128.Slices ![12, 0] S1x128
  slices_S392x64_o0_12_S392x1 : S392x64.Slices ![0, 12] S392x1
  slices_S64x128_o13_0_S1x128 : S64x128.Slices ![13, 0] S1x128
  slices_S392x64_o0_13_S392x1 : S392x64.Slices ![0, 13] S392x1
  slices_S64x128_o14_0_S1x128 : S64x128.Slices ![14, 0] S1x128
  slices_S392x64_o0_14_S392x1 : S392x64.Slices ![0, 14] S392x1
  slices_S64x128_o15_0_S1x128 : S64x128.Slices ![15, 0] S1x128
  slices_S392x64_o0_15_S392x1 : S392x64.Slices ![0, 15] S392x1
  slices_S64x128_o16_0_S1x128 : S64x128.Slices ![16, 0] S1x128
  slices_S392x64_o0_16_S392x1 : S392x64.Slices ![0, 16] S392x1
  slices_S64x128_o17_0_S1x128 : S64x128.Slices ![17, 0] S1x128
  slices_S392x64_o0_17_S392x1 : S392x64.Slices ![0, 17] S392x1
  slices_S64x128_o18_0_S1x128 : S64x128.Slices ![18, 0] S1x128
  slices_S392x64_o0_18_S392x1 : S392x64.Slices ![0, 18] S392x1
  slices_S64x128_o19_0_S1x128 : S64x128.Slices ![19, 0] S1x128
  slices_S392x64_o0_19_S392x1 : S392x64.Slices ![0, 19] S392x1
  slices_S64x128_o20_0_S1x128 : S64x128.Slices ![20, 0] S1x128
  slices_S392x64_o0_20_S392x1 : S392x64.Slices ![0, 20] S392x1
  slices_S64x128_o21_0_S1x128 : S64x128.Slices ![21, 0] S1x128
  slices_S392x64_o0_21_S392x1 : S392x64.Slices ![0, 21] S392x1
  slices_S64x128_o22_0_S1x128 : S64x128.Slices ![22, 0] S1x128
  slices_S392x64_o0_22_S392x1 : S392x64.Slices ![0, 22] S392x1
  slices_S64x128_o23_0_S1x128 : S64x128.Slices ![23, 0] S1x128
  slices_S392x64_o0_23_S392x1 : S392x64.Slices ![0, 23] S392x1
  slices_S64x128_o24_0_S1x128 : S64x128.Slices ![24, 0] S1x128
  slices_S392x64_o0_24_S392x1 : S392x64.Slices ![0, 24] S392x1
  slices_S64x128_o25_0_S1x128 : S64x128.Slices ![25, 0] S1x128
  slices_S392x64_o0_25_S392x1 : S392x64.Slices ![0, 25] S392x1
  slices_S64x128_o26_0_S1x128 : S64x128.Slices ![26, 0] S1x128
  slices_S392x64_o0_26_S392x1 : S392x64.Slices ![0, 26] S392x1
  slices_S64x128_o27_0_S1x128 : S64x128.Slices ![27, 0] S1x128
  slices_S392x64_o0_27_S392x1 : S392x64.Slices ![0, 27] S392x1
  slices_S64x128_o28_0_S1x128 : S64x128.Slices ![28, 0] S1x128
  slices_S392x64_o0_28_S392x1 : S392x64.Slices ![0, 28] S392x1
  slices_S64x128_o29_0_S1x128 : S64x128.Slices ![29, 0] S1x128
  slices_S392x64_o0_29_S392x1 : S392x64.Slices ![0, 29] S392x1
  slices_S64x128_o30_0_S1x128 : S64x128.Slices ![30, 0] S1x128
  slices_S392x64_o0_30_S392x1 : S392x64.Slices ![0, 30] S392x1
  slices_S64x128_o31_0_S1x128 : S64x128.Slices ![31, 0] S1x128
  slices_S392x64_o0_31_S392x1 : S392x64.Slices ![0, 31] S392x1
  slices_S64x128_o32_0_S1x128 : S64x128.Slices ![32, 0] S1x128
  slices_S392x64_o0_32_S392x1 : S392x64.Slices ![0, 32] S392x1
  slices_S64x128_o33_0_S1x128 : S64x128.Slices ![33, 0] S1x128
  slices_S392x64_o0_33_S392x1 : S392x64.Slices ![0, 33] S392x1
  slices_S64x128_o34_0_S1x128 : S64x128.Slices ![34, 0] S1x128
  slices_S392x64_o0_34_S392x1 : S392x64.Slices ![0, 34] S392x1
  slices_S64x128_o35_0_S1x128 : S64x128.Slices ![35, 0] S1x128
  slices_S392x64_o0_35_S392x1 : S392x64.Slices ![0, 35] S392x1
  slices_S64x128_o36_0_S1x128 : S64x128.Slices ![36, 0] S1x128
  slices_S392x64_o0_36_S392x1 : S392x64.Slices ![0, 36] S392x1
  slices_S64x128_o37_0_S1x128 : S64x128.Slices ![37, 0] S1x128
  slices_S392x64_o0_37_S392x1 : S392x64.Slices ![0, 37] S392x1
  slices_S64x128_o38_0_S1x128 : S64x128.Slices ![38, 0] S1x128
  slices_S392x64_o0_38_S392x1 : S392x64.Slices ![0, 38] S392x1
  slices_S64x128_o39_0_S1x128 : S64x128.Slices ![39, 0] S1x128
  slices_S392x64_o0_39_S392x1 : S392x64.Slices ![0, 39] S392x1
  slices_S64x128_o40_0_S1x128 : S64x128.Slices ![40, 0] S1x128
  slices_S392x64_o0_40_S392x1 : S392x64.Slices ![0, 40] S392x1
  slices_S64x128_o41_0_S1x128 : S64x128.Slices ![41, 0] S1x128
  slices_S392x64_o0_41_S392x1 : S392x64.Slices ![0, 41] S392x1
  slices_S64x128_o42_0_S1x128 : S64x128.Slices ![42, 0] S1x128
  slices_S392x64_o0_42_S392x1 : S392x64.Slices ![0, 42] S392x1
  slices_S64x128_o43_0_S1x128 : S64x128.Slices ![43, 0] S1x128
  slices_S392x64_o0_43_S392x1 : S392x64.Slices ![0, 43] S392x1
  slices_S64x128_o44_0_S1x128 : S64x128.Slices ![44, 0] S1x128
  slices_S392x64_o0_44_S392x1 : S392x64.Slices ![0, 44] S392x1
  slices_S64x128_o45_0_S1x128 : S64x128.Slices ![45, 0] S1x128
  slices_S392x64_o0_45_S392x1 : S392x64.Slices ![0, 45] S392x1
  slices_S64x128_o46_0_S1x128 : S64x128.Slices ![46, 0] S1x128
  slices_S392x64_o0_46_S392x1 : S392x64.Slices ![0, 46] S392x1
  slices_S64x128_o47_0_S1x128 : S64x128.Slices ![47, 0] S1x128
  slices_S392x64_o0_47_S392x1 : S392x64.Slices ![0, 47] S392x1
  slices_S64x128_o48_0_S1x128 : S64x128.Slices ![48, 0] S1x128
  slices_S392x64_o0_48_S392x1 : S392x64.Slices ![0, 48] S392x1
  slices_S64x128_o49_0_S1x128 : S64x128.Slices ![49, 0] S1x128
  slices_S392x64_o0_49_S392x1 : S392x64.Slices ![0, 49] S392x1
  slices_S64x128_o50_0_S1x128 : S64x128.Slices ![50, 0] S1x128
  slices_S392x64_o0_50_S392x1 : S392x64.Slices ![0, 50] S392x1
  slices_S64x128_o51_0_S1x128 : S64x128.Slices ![51, 0] S1x128
  slices_S392x64_o0_51_S392x1 : S392x64.Slices ![0, 51] S392x1
  slices_S64x128_o52_0_S1x128 : S64x128.Slices ![52, 0] S1x128
  slices_S392x64_o0_52_S392x1 : S392x64.Slices ![0, 52] S392x1
  slices_S64x128_o53_0_S1x128 : S64x128.Slices ![53, 0] S1x128
  slices_S392x64_o0_53_S392x1 : S392x64.Slices ![0, 53] S392x1
  slices_S64x128_o54_0_S1x128 : S64x128.Slices ![54, 0] S1x128
  slices_S392x64_o0_54_S392x1 : S392x64.Slices ![0, 54] S392x1
  slices_S64x128_o55_0_S1x128 : S64x128.Slices ![55, 0] S1x128
  slices_S392x64_o0_55_S392x1 : S392x64.Slices ![0, 55] S392x1
  slices_S64x128_o56_0_S1x128 : S64x128.Slices ![56, 0] S1x128
  slices_S392x64_o0_56_S392x1 : S392x64.Slices ![0, 56] S392x1
  slices_S64x128_o57_0_S1x128 : S64x128.Slices ![57, 0] S1x128
  slices_S392x64_o0_57_S392x1 : S392x64.Slices ![0, 57] S392x1
  slices_S64x128_o58_0_S1x128 : S64x128.Slices ![58, 0] S1x128
  slices_S392x64_o0_58_S392x1 : S392x64.Slices ![0, 58] S392x1
  slices_S64x128_o59_0_S1x128 : S64x128.Slices ![59, 0] S1x128
  slices_S392x64_o0_59_S392x1 : S392x64.Slices ![0, 59] S392x1
  slices_S64x128_o60_0_S1x128 : S64x128.Slices ![60, 0] S1x128
  slices_S392x64_o0_60_S392x1 : S392x64.Slices ![0, 60] S392x1
  slices_S64x128_o61_0_S1x128 : S64x128.Slices ![61, 0] S1x128
  slices_S392x64_o0_61_S392x1 : S392x64.Slices ![0, 61] S392x1
  slices_S64x128_o62_0_S1x128 : S64x128.Slices ![62, 0] S1x128
  slices_S392x64_o0_62_S392x1 : S392x64.Slices ![0, 62] S392x1
  slices_S64x128_o63_0_S1x128 : S64x128.Slices ![63, 0] S1x128
  slices_S392x64_o0_63_S392x1 : S392x64.Slices ![0, 63] S392x1
  inb_S1x392x8192_S1x392x128_0_0_0 : ∀ a, (![0, 0, 0] : Fin 3 → Nat) a + S1x392x128.size a ≤ S1x392x8192.size a
  shapeCasts_S392x128_S1x392x128 : S392x128.ShapeCasts S1x392x128
  inb_S1x392x8192_S1x392x128_0_0_128 : ∀ a, (![0, 0, 128] : Fin 3 → Nat) a + S1x392x128.size a ≤ S1x392x8192.size a
  inb_S1x392x8192_S1x392x128_0_0_256 : ∀ a, (![0, 0, 256] : Fin 3 → Nat) a + S1x392x128.size a ≤ S1x392x8192.size a
  inb_S1x392x8192_S1x392x128_0_0_384 : ∀ a, (![0, 0, 384] : Fin 3 → Nat) a + S1x392x128.size a ≤ S1x392x8192.size a
  inb_S1x392x8192_S1x392x128_0_0_512 : ∀ a, (![0, 0, 512] : Fin 3 → Nat) a + S1x392x128.size a ≤ S1x392x8192.size a
  inb_S1x392x8192_S1x392x128_0_0_640 : ∀ a, (![0, 0, 640] : Fin 3 → Nat) a + S1x392x128.size a ≤ S1x392x8192.size a
  inb_S1x392x8192_S1x392x128_0_0_768 : ∀ a, (![0, 0, 768] : Fin 3 → Nat) a + S1x392x128.size a ≤ S1x392x8192.size a
  inb_S1x392x8192_S1x392x128_0_0_896 : ∀ a, (![0, 0, 896] : Fin 3 → Nat) a + S1x392x128.size a ≤ S1x392x8192.size a
  inb_S1x392x8192_S1x392x128_0_0_1024 : ∀ a, (![0, 0, 1024] : Fin 3 → Nat) a + S1x392x128.size a ≤ S1x392x8192.size a
  inb_S1x392x8192_S1x392x128_0_0_1152 : ∀ a, (![0, 0, 1152] : Fin 3 → Nat) a + S1x392x128.size a ≤ S1x392x8192.size a
  inb_S1x392x8192_S1x392x128_0_0_1280 : ∀ a, (![0, 0, 1280] : Fin 3 → Nat) a + S1x392x128.size a ≤ S1x392x8192.size a
  inb_S1x392x8192_S1x392x128_0_0_1408 : ∀ a, (![0, 0, 1408] : Fin 3 → Nat) a + S1x392x128.size a ≤ S1x392x8192.size a
  inb_S1x392x8192_S1x392x128_0_0_1536 : ∀ a, (![0, 0, 1536] : Fin 3 → Nat) a + S1x392x128.size a ≤ S1x392x8192.size a
  inb_S1x392x8192_S1x392x128_0_0_1664 : ∀ a, (![0, 0, 1664] : Fin 3 → Nat) a + S1x392x128.size a ≤ S1x392x8192.size a
  inb_S1x392x8192_S1x392x128_0_0_1792 : ∀ a, (![0, 0, 1792] : Fin 3 → Nat) a + S1x392x128.size a ≤ S1x392x8192.size a
  inb_S1x392x8192_S1x392x128_0_0_1920 : ∀ a, (![0, 0, 1920] : Fin 3 → Nat) a + S1x392x128.size a ≤ S1x392x8192.size a
  inb_S1x392x8192_S1x392x128_0_0_2048 : ∀ a, (![0, 0, 2048] : Fin 3 → Nat) a + S1x392x128.size a ≤ S1x392x8192.size a
  inb_S1x392x8192_S1x392x128_0_0_2176 : ∀ a, (![0, 0, 2176] : Fin 3 → Nat) a + S1x392x128.size a ≤ S1x392x8192.size a
  inb_S1x392x8192_S1x392x128_0_0_2304 : ∀ a, (![0, 0, 2304] : Fin 3 → Nat) a + S1x392x128.size a ≤ S1x392x8192.size a
  inb_S1x392x8192_S1x392x128_0_0_2432 : ∀ a, (![0, 0, 2432] : Fin 3 → Nat) a + S1x392x128.size a ≤ S1x392x8192.size a
  inb_S1x392x8192_S1x392x128_0_0_2560 : ∀ a, (![0, 0, 2560] : Fin 3 → Nat) a + S1x392x128.size a ≤ S1x392x8192.size a
  inb_S1x392x8192_S1x392x128_0_0_2688 : ∀ a, (![0, 0, 2688] : Fin 3 → Nat) a + S1x392x128.size a ≤ S1x392x8192.size a
  inb_S1x392x8192_S1x392x128_0_0_2816 : ∀ a, (![0, 0, 2816] : Fin 3 → Nat) a + S1x392x128.size a ≤ S1x392x8192.size a
  inb_S1x392x8192_S1x392x128_0_0_2944 : ∀ a, (![0, 0, 2944] : Fin 3 → Nat) a + S1x392x128.size a ≤ S1x392x8192.size a
  inb_S1x392x8192_S1x392x128_0_0_3072 : ∀ a, (![0, 0, 3072] : Fin 3 → Nat) a + S1x392x128.size a ≤ S1x392x8192.size a
  inb_S1x392x8192_S1x392x128_0_0_3200 : ∀ a, (![0, 0, 3200] : Fin 3 → Nat) a + S1x392x128.size a ≤ S1x392x8192.size a
  inb_S1x392x8192_S1x392x128_0_0_3328 : ∀ a, (![0, 0, 3328] : Fin 3 → Nat) a + S1x392x128.size a ≤ S1x392x8192.size a
  inb_S1x392x8192_S1x392x128_0_0_3456 : ∀ a, (![0, 0, 3456] : Fin 3 → Nat) a + S1x392x128.size a ≤ S1x392x8192.size a
  inb_S1x392x8192_S1x392x128_0_0_3584 : ∀ a, (![0, 0, 3584] : Fin 3 → Nat) a + S1x392x128.size a ≤ S1x392x8192.size a
  inb_S1x392x8192_S1x392x128_0_0_3712 : ∀ a, (![0, 0, 3712] : Fin 3 → Nat) a + S1x392x128.size a ≤ S1x392x8192.size a
  inb_S1x392x8192_S1x392x128_0_0_3840 : ∀ a, (![0, 0, 3840] : Fin 3 → Nat) a + S1x392x128.size a ≤ S1x392x8192.size a
  inb_S1x392x8192_S1x392x128_0_0_3968 : ∀ a, (![0, 0, 3968] : Fin 3 → Nat) a + S1x392x128.size a ≤ S1x392x8192.size a
  inb_S1x392x8192_S1x392x128_0_0_4096 : ∀ a, (![0, 0, 4096] : Fin 3 → Nat) a + S1x392x128.size a ≤ S1x392x8192.size a
  inb_S1x392x8192_S1x392x128_0_0_4224 : ∀ a, (![0, 0, 4224] : Fin 3 → Nat) a + S1x392x128.size a ≤ S1x392x8192.size a
  inb_S1x392x8192_S1x392x128_0_0_4352 : ∀ a, (![0, 0, 4352] : Fin 3 → Nat) a + S1x392x128.size a ≤ S1x392x8192.size a
  inb_S1x392x8192_S1x392x128_0_0_4480 : ∀ a, (![0, 0, 4480] : Fin 3 → Nat) a + S1x392x128.size a ≤ S1x392x8192.size a
  inb_S1x392x8192_S1x392x128_0_0_4608 : ∀ a, (![0, 0, 4608] : Fin 3 → Nat) a + S1x392x128.size a ≤ S1x392x8192.size a
  inb_S1x392x8192_S1x392x128_0_0_4736 : ∀ a, (![0, 0, 4736] : Fin 3 → Nat) a + S1x392x128.size a ≤ S1x392x8192.size a
  inb_S1x392x8192_S1x392x128_0_0_4864 : ∀ a, (![0, 0, 4864] : Fin 3 → Nat) a + S1x392x128.size a ≤ S1x392x8192.size a
  inb_S1x392x8192_S1x392x128_0_0_4992 : ∀ a, (![0, 0, 4992] : Fin 3 → Nat) a + S1x392x128.size a ≤ S1x392x8192.size a
  inb_S1x392x8192_S1x392x128_0_0_5120 : ∀ a, (![0, 0, 5120] : Fin 3 → Nat) a + S1x392x128.size a ≤ S1x392x8192.size a
  inb_S1x392x8192_S1x392x128_0_0_5248 : ∀ a, (![0, 0, 5248] : Fin 3 → Nat) a + S1x392x128.size a ≤ S1x392x8192.size a
  inb_S1x392x8192_S1x392x128_0_0_5376 : ∀ a, (![0, 0, 5376] : Fin 3 → Nat) a + S1x392x128.size a ≤ S1x392x8192.size a
  inb_S1x392x8192_S1x392x128_0_0_5504 : ∀ a, (![0, 0, 5504] : Fin 3 → Nat) a + S1x392x128.size a ≤ S1x392x8192.size a
  inb_S1x392x8192_S1x392x128_0_0_5632 : ∀ a, (![0, 0, 5632] : Fin 3 → Nat) a + S1x392x128.size a ≤ S1x392x8192.size a
  inb_S1x392x8192_S1x392x128_0_0_5760 : ∀ a, (![0, 0, 5760] : Fin 3 → Nat) a + S1x392x128.size a ≤ S1x392x8192.size a
  inb_S1x392x8192_S1x392x128_0_0_5888 : ∀ a, (![0, 0, 5888] : Fin 3 → Nat) a + S1x392x128.size a ≤ S1x392x8192.size a
  inb_S1x392x8192_S1x392x128_0_0_6016 : ∀ a, (![0, 0, 6016] : Fin 3 → Nat) a + S1x392x128.size a ≤ S1x392x8192.size a
  inb_S1x392x8192_S1x392x128_0_0_6144 : ∀ a, (![0, 0, 6144] : Fin 3 → Nat) a + S1x392x128.size a ≤ S1x392x8192.size a
  inb_S1x392x8192_S1x392x128_0_0_6272 : ∀ a, (![0, 0, 6272] : Fin 3 → Nat) a + S1x392x128.size a ≤ S1x392x8192.size a
  inb_S1x392x8192_S1x392x128_0_0_6400 : ∀ a, (![0, 0, 6400] : Fin 3 → Nat) a + S1x392x128.size a ≤ S1x392x8192.size a
  inb_S1x392x8192_S1x392x128_0_0_6528 : ∀ a, (![0, 0, 6528] : Fin 3 → Nat) a + S1x392x128.size a ≤ S1x392x8192.size a
  inb_S1x392x8192_S1x392x128_0_0_6656 : ∀ a, (![0, 0, 6656] : Fin 3 → Nat) a + S1x392x128.size a ≤ S1x392x8192.size a
  inb_S1x392x8192_S1x392x128_0_0_6784 : ∀ a, (![0, 0, 6784] : Fin 3 → Nat) a + S1x392x128.size a ≤ S1x392x8192.size a
  inb_S1x392x8192_S1x392x128_0_0_6912 : ∀ a, (![0, 0, 6912] : Fin 3 → Nat) a + S1x392x128.size a ≤ S1x392x8192.size a
  inb_S1x392x8192_S1x392x128_0_0_7040 : ∀ a, (![0, 0, 7040] : Fin 3 → Nat) a + S1x392x128.size a ≤ S1x392x8192.size a
  inb_S1x392x8192_S1x392x128_0_0_7168 : ∀ a, (![0, 0, 7168] : Fin 3 → Nat) a + S1x392x128.size a ≤ S1x392x8192.size a
  inb_S1x392x8192_S1x392x128_0_0_7296 : ∀ a, (![0, 0, 7296] : Fin 3 → Nat) a + S1x392x128.size a ≤ S1x392x8192.size a
  inb_S1x392x8192_S1x392x128_0_0_7424 : ∀ a, (![0, 0, 7424] : Fin 3 → Nat) a + S1x392x128.size a ≤ S1x392x8192.size a
  inb_S1x392x8192_S1x392x128_0_0_7552 : ∀ a, (![0, 0, 7552] : Fin 3 → Nat) a + S1x392x128.size a ≤ S1x392x8192.size a
  inb_S1x392x8192_S1x392x128_0_0_7680 : ∀ a, (![0, 0, 7680] : Fin 3 → Nat) a + S1x392x128.size a ≤ S1x392x8192.size a
  inb_S1x392x8192_S1x392x128_0_0_7808 : ∀ a, (![0, 0, 7808] : Fin 3 → Nat) a + S1x392x128.size a ≤ S1x392x8192.size a
  inb_S1x392x8192_S1x392x128_0_0_7936 : ∀ a, (![0, 0, 7936] : Fin 3 → Nat) a + S1x392x128.size a ≤ S1x392x8192.size a
  inb_S1x392x8192_S1x392x128_0_0_8064 : ∀ a, (![0, 0, 8064] : Fin 3 → Nat) a + S1x392x128.size a ≤ S1x392x8192.size a
  shapeCasts_S8x784x8192_S8x16x49x8192 : S8x784x8192.ShapeCasts S8x16x49x8192
  gather_S8x256x128_S64x1_S8x64x128_02_1_n_n_1_1_81128_wf : GatherDims.WF S8x256x128 S64x1 S8x64x128 [0, 2] [1] [] [1] [] 1 ![8, 1, 128]
  dot_S392x128_S128x64_S392x64_1_0_0_1_n_n_wf : DotDims.WF S392x128 S128x64 S392x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x392x128.size a ≤ S8x784x128.size a
  hwx0_0 : ∀ i : grid0.Coords, EltTy.bits .f32 = 32 ∨ (Rect.block (s := S8x784x128) S1x392x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x128.size a
  hwx0_1 : ∀ i : grid0.Coords, EltTy.bits .f32 = 32 ∨ (Rect.block (s := S8x64x128) S1x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x392x8192.size a ≤ S8x784x8192.size a
  hwx0_4 : ∀ i : grid0.Coords, EltTy.bits .f32 = 32 ∨ (Rect.block (s := S8x784x8192) S1x392x8192.size (cc0_transform_4 i) (hinb0_4 i)).WholeWords (EltTy.packing .f32)

variable [Facts₀]

def gather_S8x256x128_S64x1_S8x64x128_02_1_n_n_1_1_81128 : GatherDims S8x256x128 S64x1 S8x64x128 where
  offsetDims := [0, 2]
  collapsedSliceDims := [1]
  operandBatchingDims := []
  startIndicesBatchingDims := []
  startIndexMap := [1]
  indexVectorDim := 1
  sliceSizes := ![8, 1, 128]
  wf := gather_S8x256x128_S64x1_S8x64x128_02_1_n_n_1_1_81128_wf
def dot_S392x128_S128x64_S392x64_1_0_0_1_n_n : DotDims S392x128 S128x64 S392x64 where
  lhsContracting := [1]
  rhsContracting := [0]
  lhsNonContracting := [0]
  rhsNonContracting := [1]
  lhsBatch := []
  rhsBatch := []
  wf := dot_S392x128_S128x64_S392x64_1_0_0_1_n_n_wf

abbrev win0_0 : Pipeline.Window sig grid0 :=
  Pipeline.Window.ofSpec (Memref.whole main_v0) S1x392x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x392x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16x49x128 : Shape := ⟨4, ![8, 16, 49, 128]⟩
abbrev S8x256x128 : Shape := ⟨3, ![8, 256, 128]⟩
abbrev S64x128 : Shape := ⟨2, ![64, 128]⟩
abbrev S64 : Shape := ⟨1, ![64]⟩
abbrev S_ : Shape := ⟨0, ![]⟩
abbrev S8x16x49 : Shape := ⟨3, ![8, 16, 49]⟩
abbrev S8x16x49x1 : Shape := ⟨4, ![8, 16, 49, 1]⟩
abbrev S64x8x16x49 : Shape := ⟨4, ![64, 8, 16, 49]⟩
abbrev S8x64x16x49 : Shape := ⟨4, ![8, 64, 16, 49]⟩
abbrev S1x64x1x1 : Shape := ⟨4, ![1, 64, 1, 1]⟩
abbrev S8x1x16x49 : Shape := ⟨4, ![8, 1, 16, 49]⟩
abbrev S64x1 : Shape := ⟨2, ![64, 1]⟩
abbrev S8x64x128 : Shape := ⟨3, ![8, 64, 128]⟩
abbrev S8x1x16x49x128 : Shape := ⟨5, ![8, 1, 16, 49, 128]⟩
abbrev S8x64x1x1x128 : Shape := ⟨5, ![8, 64, 1, 1, 128]⟩
abbrev S8x64x16x49x128 : Shape := ⟨5, ![8, 64, 16, 49, 128]⟩
abbrev S8x64x16x49x1 : Shape := ⟨5, ![8, 64, 16, 49, 1]⟩
abbrev S8x16x49x64x128 : Shape := ⟨5, ![8, 16, 49, 64, 128]⟩
abbrev S8x16x49x64 : Shape := ⟨4, ![8, 16, 49, 64]⟩
abbrev S8x16x49x64x1 : Shape := ⟨5, ![8, 16, 49, 64, 1]⟩
abbrev S8x16x49x8192 : Shape := ⟨4, ![8, 16, 49, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8x16x49x128, .f32⟩
  | .hbm, ⟨1, _⟩ => ⟨S8x256x128, .f32⟩
  | .hbm, ⟨2, _⟩ => ⟨S64x128, .f32⟩
  | .hbm, ⟨3, _⟩ => ⟨S64, .f32⟩
  | .hbm, ⟨4, _⟩ => ⟨S64, .i32⟩
  | .hbm, ⟨5, _⟩ => ⟨S8x16x49x128, .f32⟩
  | .hbm, ⟨6, _⟩ => ⟨S_, .f32⟩
  | .hbm, ⟨7, _⟩ => ⟨S8x16x49, .f32⟩
  | .hbm, ⟨8, _⟩ => ⟨S8x16x49x1, .f32⟩
  | .hbm, ⟨9, _⟩ => ⟨S8x16x49x1, .f32⟩
  | .hbm, ⟨10, _⟩ => ⟨S_, .f32⟩
  | .hbm, ⟨11, _⟩ => ⟨S8x16x49x1, .f32⟩
  | .hbm, ⟨12, _⟩ => ⟨S8x16x49x1, .f32⟩
  | .hbm, ⟨13, _⟩ => ⟨S8x16x49x128, .f32⟩
  | .hbm, ⟨14, _⟩ => ⟨S8x16x49x128, .f32⟩
  | .hbm, ⟨15, _⟩ => ⟨S64x8x16x49, .f32⟩
  | .hbm, ⟨16, _⟩ => ⟨S8x64x16x49, .f32⟩
  | .hbm, ⟨17, _⟩ => ⟨S1x64x1x1, .f32⟩
  | .hbm, ⟨18, _⟩ => ⟨S8x64x16x49, .f32⟩
  | .hbm, ⟨19, _⟩ => ⟨S8x64x16x49, .f32⟩
  | .hbm, ⟨20, _⟩ => ⟨S_, .f32⟩
  | .hbm, ⟨21, _⟩ => ⟨S8x16x49, .f32⟩
  | .hbm, ⟨22, _⟩ => ⟨S_, .f32⟩
  | .hbm, ⟨23, _⟩ => ⟨S8x16x49, .f32⟩
  | .hbm, ⟨24, _⟩ => ⟨S8x16x49, .f32⟩
  | .hbm, ⟨25, _⟩ => ⟨S8x1x16x49, .f32⟩
  | .hbm, ⟨26, _⟩ => ⟨S8x64x16x49, .f32⟩
  | .hbm, ⟨27, _⟩ => ⟨S8x64x16x49, .f32⟩
  | .hbm, ⟨28, _⟩ => ⟨S8x64x16x49, .f32⟩
  | .hbm, ⟨29, _⟩ => ⟨S_, .f32⟩
  | .hbm, ⟨30, _⟩ => ⟨S8x16x49, .f32⟩
  | .hbm, ⟨31, _⟩ => ⟨S8x1x16x49, .f32⟩
  | .hbm, ⟨32, _⟩ => ⟨S8x64x16x49, .f32⟩
  | .hbm, ⟨33, _⟩ => ⟨S8x64x16x49, .f32⟩
  | .hbm, ⟨34, _⟩ => ⟨S_, .i32⟩
  | .hbm, ⟨35, _⟩ => ⟨S64, .i32⟩
  | .hbm, ⟨36, _⟩ => ⟨S64, .i1⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S8x64x128, .f32⟩
  | .hbm, ⟨43, _⟩ => ⟨S8x1x16x49x128, .f32⟩
  | .hbm, ⟨44, _⟩ => ⟨S8x64x1x1x128, .f32⟩
  | .hbm, ⟨45, _⟩ => ⟨S8x64x16x49x128, .f32⟩
  | .hbm, ⟨46, _⟩ => ⟨S8x64x16x49x128, .f32⟩
  | .hbm, ⟨47, _⟩ => ⟨S8x64x16x49x128, .f32⟩
  | .hbm, ⟨48, _⟩ => ⟨S8x64x16x49x1, .f32⟩
  | .hbm, ⟨49, _⟩ => ⟨S8x64x16x49x128, .f32⟩
  | .hbm, ⟨50, _⟩ => ⟨S8x64x16x49x128, .f32⟩
  | .hbm, ⟨51, _⟩ => ⟨S8x16x49x64x128, .f32⟩
  | .hbm, ⟨52, _⟩ => ⟨S8x16x49x64x128, .f32⟩
  | .hbm, ⟨53, _⟩ => ⟨S_, .f32⟩
  | .hbm, ⟨54, _⟩ => ⟨S8x16x49x64, .f32⟩
  | .hbm, ⟨55, _⟩ => ⟨S8x16x49x64x1, .f32⟩
  | .hbm, ⟨56, _⟩ => ⟨S8x16x49x64x1, .f32⟩
  | .hbm, ⟨57, _⟩ => ⟨S_, .f32⟩
  | .hbm, ⟨58, _⟩ => ⟨S8x16x49x64x1, .f32⟩
  | .hbm, ⟨59, _⟩ => ⟨S8x16x49x64x1, .f32⟩
  | .hbm, ⟨60, _⟩ => ⟨S8x16x49x64x128, .f32⟩
  | .hbm, ⟨61, _⟩ => ⟨S8x16x49x64x128, .f32⟩
  | .hbm, ⟨62, _⟩ => ⟨S8x16x49x8192, .f32⟩
  | .hbm, ⟨63, _⟩ => ⟨S8x16x49x8192, .f32⟩
  | .hbm, ⟨64, _⟩ => ⟨S_, .f32⟩
  | .hbm, ⟨65, _⟩ => ⟨S8x16x49, .f32⟩
  | .hbm, ⟨66, _⟩ => ⟨S8x16x49x1, .f32⟩
  | .hbm, ⟨67, _⟩ => ⟨S8x16x49x1, .f32⟩
  | .hbm, ⟨68, _⟩ => ⟨S_, .f32⟩
  | .hbm, ⟨69, _⟩ => ⟨S8x16x49x1, .f32⟩
  | .hbm, ⟨70, _⟩ => ⟨S8x16x49x1, .f32⟩
  | .hbm, ⟨71, _⟩ => ⟨S8x16x49x8192, .f32⟩
  | .hbm, ⟨72, _⟩ => ⟨S8x16x49x8192, .f32⟩
  | _, _ => ⟨S8x16x49x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  reducesTo_S8x16x49x128_S8x16x49_d3 : S8x16x49x128.ReducesTo [3] S8x16x49
  h_S_ : 0 < S_.numel
  bcast_S8x16x49_S8x16x49x1_0_1_2 : S8x16x49.BroadcastsInDim S8x16x49x1 (![0, 1, 2] : Fin 3 → Fin S8x16x49x1.rank)
  bcast_S_S8x16x49x1 : S_.BroadcastsInDim S8x16x49x1 (![] : Fin 0 → Fin S8x16x49x1.rank)
  bcast_S8x16x49x1_S8x16x49x128_0_1_2_3 : S8x16x49x1.BroadcastsInDim S8x16x49x128 (![0, 1, 2, 3] : Fin 4 → Fin S8x16x49x128.rank)
  transposes_S64x8x16x49_S8x64x16x49_1_0_2_3 : S64x8x16x49.Transposes [1, 0, 2, 3] S8x64x16x49
  bcast_S64_S1x64x1x1_1 : S64.BroadcastsInDim S1x64x1x1 (![1] : Fin 1 → Fin S1x64x1x1.rank)
  bcast_S1x64x1x1_S8x64x16x49_0_1_2_3 : S1x64x1x1.BroadcastsInDim S8x64x16x49 (![0, 1, 2, 3] : Fin 4 → Fin S8x64x16x49.rank)
  reducesTo_S8x64x16x49_S8x16x49_d1 : S8x64x16x49.ReducesTo [1] S8x16x49
  bcast_S_S8x16x49 : S_.BroadcastsInDim S8x16x49 (![] : Fin 0 → Fin S8x16x49.rank)
  bcast_S8x16x49_S8x1x16x49_0_2_3 : S8x16x49.BroadcastsInDim S8x1x16x49 (![0, 2, 3] : Fin 3 → Fin S8x1x16x49.rank)
  bcast_S8x1x16x49_S8x64x16x49_0_1_2_3 : S8x1x16x49.BroadcastsInDim S8x64x16x49 (![0, 1, 2, 3] : Fin 4 → Fin S8x64x16x49.rank)
  bcast_S_S64 : S_.BroadcastsInDim S64 (![] : Fin 0 → Fin S64.rank)
  bcast_S64_S64x1_0 : S64.BroadcastsInDim S64x1 (![0] : Fin 1 → Fin S64x1.rank)
  bcast_S8x16x49x128_S8x1x16x49x128_0_2_3_4 : S8x16x49x128.BroadcastsInDim S8x1x16x49x128 (![0, 2, 3, 4] : Fin 4 → Fin S8x1x16x49x128.rank)
  bcast_S8x64x128_S8x64x1x1x128_0_1_4 : S8x64x128.BroadcastsInDim S8x64x1x1x128 (![0, 1, 4] : Fin 3 → Fin S8x64x1x1x128.rank)
  bcast_S8x1x16x49x128_S8x64x16x49x128_0_1_2_3_4 : S8x1x16x49x128.BroadcastsInDim S8x64x16x49x128 (![0, 1, 2, 3, 4] : Fin 5 → Fin S8x64x16x49x128.rank)
  bcast_S8x64x1x1x128_S8x64x16x49x128_0_1_2_3_4 : S8x64x1x1x128.BroadcastsInDim S8x64x16x49x128 (![0, 1, 2, 3, 4] : Fin 5 → Fin S8x64x16x49x128.rank)
  bcast_S8x64x16x49_S8x64x16x49x1_0_1_2_3 : S8x64x16x49.BroadcastsInDim S8x64x16x49x1 (![0, 1, 2, 3] : Fin 4 → Fin S8x64x16x49x1.rank)
  bcast_S8x64x16x49x1_S8x64x16x49x128_0_1_2_3_4 : S8x64x16x49x1.BroadcastsInDim S8x64x16x49x128 (![0, 1, 2, 3, 4] : Fin 5 → Fin S8x64x16x49x128.rank)
  transposes_S8x64x16x49x128_S8x16x49x64x128_0_2_3_1_4 : S8x64x16x49x128.Transposes [0, 2, 3, 1, 4] S8x16x49x64x128
  reducesTo_S8x16x49x64x128_S8x16x49x64_d4 : S8x16x49x64x128.ReducesTo [4] S8x16x49x64
  bcast_S8x16x49x64_S8x16x49x64x1_0_1_2_3 : S8x16x49x64.BroadcastsInDim S8x16x49x64x1 (![0, 1, 2, 3] : Fin 4 → Fin S8x16x49x64x1.rank)
  bcast_S_S8x16x49x64x1 : S_.BroadcastsInDim S8x16x49x64x1 (![] : Fin 0 → Fin S8x16x49x64x1.rank)
  bcast_S8x16x49x64x1_S8x16x49x64x128_0_1_2_3_4 : S8x16x49x64x1.BroadcastsInDim S8x16x49x64x128 (![0, 1, 2, 3, 4] : Fin 5 → Fin S8x16x49x64x128.rank)
  shapeCasts_S8x16x49x64x128_S8x16x49x8192 : S8x16x49x64x128.ShapeCasts S8x16x49x8192
  reducesTo_S8x16x49x8192_S8x16x49_d3 : S8x16x49x8192.ReducesTo [3] S8x16x49
  bcast_S8x16x49x1_S8x16x49x8192_0_1_2_3 : S8x16x49x1.BroadcastsInDim S8x16x49x8192 (![0, 1, 2, 3] : Fin 4 → Fin S8x16x49x8192.rank)
  dot_S64x128_S8x16x49x128_S64x8x16x49_1_3_0_012_n_n_wf : DotDims.WF S64x128 S8x16x49x128 S64x8x16x49 [1] [3] [0] [0, 1, 2] [] []
  gather_S8x256x128_S64x1_S8x64x128_02_1_n_n_1_1_81128_wf : GatherDims.WF S8x256x128 S64x1 S8x64x128 [0, 2] [1] [] [1] [] 1 ![8, 1, 128]

variable [Facts₀]

def dot_S64x128_S8x16x49x128_S64x8x16x49_1_3_0_012_n_n : DotDims S64x128 S8x16x49x128 S64x8x16x49 where
  lhsContracting := [1]
  rhsContracting := [3]
  lhsNonContracting := [0]
  rhsNonContracting := [0, 1, 2]
  lhsBatch := []
  rhsBatch := []
  wf := dot_S64x128_S8x16x49x128_S64x8x16x49_1_3_0_012_n_n_wf
def gather_S8x256x128_S64x1_S8x64x128_02_1_n_n_1_1_81128 : GatherDims S8x256x128 S64x1 S8x64x128 where
  offsetDims := [0, 2]
  collapsedSliceDims := [1]
  operandBatchingDims := []
  startIndicesBatchingDims := []
  startIndexMap := [1]
  indexVectorDim := 1
  sliceSizes := ![8, 1, 128]
  wf := gather_S8x256x128_S64x1_S8x64x128_02_1_n_n_1_1_81128_wf

class Facts : Prop extends Facts₀ where

variable [Facts]
-- ==== Proof.Pieces.lean ====
/-
  The body of the kernel, one cluster at a time.

  For one grid point the body holds three values: `xn` (the rows of x, each divided by the larger of its
  Euclidean norm and ε), `soft` (the softmax over the 64 clusters of the rows' logits) and `cent` (the 64
  selected codebook rows). Everything after them is the same arithmetic for every cluster k:
    resid k  = (xn − row k of cent) · column k of soft
    norm k   = the square root of the row sums of (resid k)²
    denom k  = max (norm k, ε)
    ratio² k = (norm k / denom k)²
  the running sum  sumsq n = ratio² 0 + … + ratio² (n−1)  (from the zero column),
    invg     = 1 / max (√(sumsq 64), ε)
  and the block of 128 output lanes that cluster k owns is (resid k / denom k) · invg.

  The printed body spells this out 64 times over; here it is written once, with k a variable, and the body's
  64 stores are shown to be exactly these 64 blocks (by unfolding alone: the two texts are the same term).
-/
import proofs.«173652_j19292993093866_2_alg».proof.Proof.Gen.KernelIdeal.Frame

set_option maxRecDepth 65536

noncomputable section

namespace Cert.KernelIdeal.Body

open Idealize.ShloMosaic Cert.KernelIdeal Cert.KernelIdeal.Gen

variable {F : FTy → Type} [FloatOps F]

/-- Row k of the 64 codebook rows is a block of the [64,128] array. -/
theorem slice_cent (k : Fin 64) : S64x128.Slices ![k.val, 0] S1x128 :=
  ⟨rfl, fun a => match a with
    | ⟨0, _⟩ => by show k.val + 1 ≤ 64; omega
    | ⟨1, _⟩ => by show 0 + 128 ≤ 128; omega⟩

/-- Column k of the soft assignment is a block of the [392,64] array. -/
theorem slice_soft (k : Fin 64) : S392x64.Slices ![0, k.val] S392x1 :=
  ⟨rfl, fun a => match a with
    | ⟨0, _⟩ => by show 0 + 392 ≤ 392; omega
    | ⟨1, _⟩ => by show k.val + 1 ≤ 64; omega⟩

/-- The 128 lanes from 128·k on lie inside the 8192 output lanes. -/
theorem inb_out (k : Fin 64) :
    ∀ a, (![0, 0, 128 * k.val] : Fin 3 → Nat) a + S1x392x128.size a ≤ S1x392x8192.size a :=
  fun a => match a with
    | ⟨0, _⟩ => by show 0 + 1 ≤ 1; omega
    | ⟨1, _⟩ => by show 0 + 392 ≤ 392; omega
    | ⟨2, _⟩ => by show 128 * k.val + 128 ≤ 8192; omega

/-- ε, the floor of every norm. -/
abbrev epsCol : FVec F S392x1 .f32 := broadcast S392x1 (Scalar.ofBits (F := F) .f32 0x2B8CBCCC#32)

/-- (xn − cent_k) · soft_k, a [392,128] array. -/
def resid (k : Fin 64) (xn : FVec F S392x128 .f32) (soft : FVec F S392x64 .f32) (cent : FVec F S64x128 .f32) :
    FVec F S392x128 .f32 :=
  mulf (subf xn (broadcastTo S392x128 (extractStridedSlice S1x128 ![k.val, 0] cent (slice_cent k)) broadcasts_S1x128_S392x128))
    (broadcastTo S392x128 (extractStridedSlice S392x1 ![0, k.val] soft (slice_soft k)) broadcasts_S392x1_S392x128)

/-- The Euclidean norm of each row of `resid k`, as a [392,1] column. -/
def norm (k : Fin 64) (xn : FVec F S392x128 .f32) (soft : FVec F S392x64 .f32) (cent : FVec F S64x128 .f32) :
    FVec F S392x1 .f32 :=
  sqrt (shapeCast S392x1 (multiReduction .add [1] S392 (mulf (resid k xn soft cent) (resid k xn soft cent)) 0x00000000#32
    reduces_S392x128_S392 (.inl rfl) rfl) shapeCasts_S392_S392x1)

/-- max (norm k, ε). -/
def denom (k : Fin 64) (xn : FVec F S392x128 .f32) (soft : FVec F S392x64 .f32) (cent : FVec F S64x128 .f32) :
    FVec F S392x1 .f32 :=
  maximumf (norm k xn soft cent) epsCol

/-- (norm k / denom k)². -/
def ratio2 (k : Fin 64) (xn : FVec F S392x128 .f32) (soft : FVec F S392x64 .f32) (cent : FVec F S64x128 .f32) :
    FVec F S392x1 .f32 :=
  mulf (divf (norm k xn soft cent) (denom k xn soft cent)) (divf (norm k xn soft cent) (denom k xn soft cent))

/-- The running sum of the first n squared ratios, from the zero column. -/
def sumsq (xn : FVec F S392x128 .f32) (soft : FVec F S392x64 .f32) (cent : FVec F S64x128 .f32) :
    (n : ℕ) → n ≤ 64 → FVec F S392x1 .f32
  | 0, _ => broadcast S392x1 (Scalar.ofBits (F := F) .f32 0x00000000#32)
  | n + 1, h => addf (sumsq xn soft cent n (Nat.le_of_succ_le h)) (ratio2 ⟨n, h⟩ xn soft cent)

/-- 1 / max (√(sumsq 64), ε). -/
def invg (xn : FVec F S392x128 .f32) (soft : FVec F S392x64 .f32) (cent : FVec F S64x128 .f32) : FVec F S392x1 .f32 :=
  divf (broadcast S392x1 (Scalar.ofBits (F := F) .f32 0x3F800000#32))
    (maximumf (sqrt (sumsq xn soft cent 64 (Nat.le_refl 64))) epsCol)

/-- What the body stores into the 128 lanes of cluster k: (resid k / denom k) · invg. -/
def block (k : Fin 64) (xn : FVec F S392x128 .f32) (soft : FVec F S392x64 .f32) (cent : FVec F S64x128 .f32) :
    FVec F S1x392x128 .f32 :=
  shapeCast S1x392x128
    (mulf (divf (resid k xn soft cent) (broadcastTo S392x128 (denom k xn soft cent) broadcasts_S392x1_S392x128))
      (broadcastTo S392x128 (invg xn soft cent) broadcasts_S392x1_S392x128))
    shapeCasts_S392x128_S1x392x128

/-- The rectangle of cluster k's lanes in the [1,392,8192] output block. -/
abbrev lanes (k : Fin 64) : Rect S1x392x8192 :=
  Rect.unit (s := S1x392x8192) ![0, 0, 128 * k.val] S1x392x128.size (inb_out k)

/-- Store k of the body: cluster k's block at cluster k's lanes. -/
def piece (k : Fin 64) (xn : FVec F S392x128 .f32) (soft : FVec F S392x64 .f32) (cent : FVec F S64x128 .f32) :
    View.Piece (Elt F) S1x392x8192 .f32 :=
  ⟨lanes k, block k xn soft cent⟩

/-- The clusters in the order the stores are listed: last store first. -/
def ks : List (Fin 64) := [63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- The output block after the body is the canon of the 64 cluster blocks over the body's three values. -/
theorem out_eq (x0 : Vec F S1x392x128 .f32) (x1 : Vec F S1x64x128 .f32) (x2 : Vec F S64x128 .f32) (x3 : Vec F S1x64 .f32) :
    out0_4 x0 x1 x2 x3 = View.canon (ks.map fun k =>
      piece k (k0_pay3 (View.ld x0 r0_0)) (k0_pay4 (View.ld x0 r0_0) (View.ld x2 r0_1) (View.ld x3 r0_2))
        (k0_pay5 (View.ld x1 r0_3))) := rfl

end Cert.KernelIdeal.Body

end
-- ==== Proof.LibReals.lean ====
/-
  Extended reals that are real numbers, and the operations that keep them so.

  At the exact (ideal) reading a float is an extended real. When a kernel's inputs are finite, every value it forms
  from them by sums, differences, products, maxima, Euclidean norms, quotients by positive reals and exponentials
  is again a real number; a value proof that needs a law of the reals (distributivity, cancelling, (√s)² = s) first
  shows its operands real with these closure facts, then takes real witnesses (`choose`) and computes in ℝ.

    IsR x : x is a real number;   IsP x : x is a positive real number.
    isR_add / isR_sub / isR_mul / isR_sum / isR_max     closure
    isP_max     the larger of a real and a positive real is a positive real (a norm floored at ε)
    isR_norm    √(Σ uᵢ²) of reals is a real;  sumsq_coe, sqrt_coe_of_nonneg, coe_sum, coe_max push the coercion
    div_coe_coe, isR_div       a quotient by a positive real
    isP_exp, isP_sum           exponentials are positive reals, and so is a nonempty sum of positive reals
    isR_fold_max               the maximum of a nonempty finite family of reals, folded from −∞, is a real
    isR_softmax                exp (z k − M) / Σ_j exp (z j − M) of real scores is a real
    mul_recip                  v · (1 / g) = v / g for a positive real g and EVERY extended real v
-/
import Idealize.ShloMosaic.PureOps.Ideal

noncomputable section

namespace Cert.LibReals

open Idealize.ShloMosaic

/-- x is a real number. -/
def IsR (x : EReal) : Prop := ∃ r : ℝ, x = (r : EReal)
/-- x is a positive real number. -/
def IsP (x : EReal) : Prop := ∃ r : ℝ, 0 < r ∧ x = (r : EReal)

theorem IsP.isR {x : EReal} (h : IsP x) : IsR x := let ⟨r, _, e⟩ := h; ⟨r, e⟩

theorem isR_zero : IsR 0 := ⟨0, rfl⟩
theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} [Fintype ι] (f : ι → EReal) (h : ∀ i, IsR (f i)) : IsR (∑ i, f i) := by
  choose g hg using h
  exact ⟨∑ i, g i, (Finset.sum_congr rfl fun i _ => hg i).trans (coe_sum _ _).symm⟩

theorem isP_sum {ι : Type} [Fintype ι] [Nonempty ι] (f : ι → EReal) (h : ∀ i, IsP (f i)) : IsP (∑ i, f i) := by
  choose g hg0 hg using h
  exact ⟨∑ i, g i, Finset.sum_pos (fun i _ => hg0 i) Finset.univ_nonempty,
    (Finset.sum_congr rfl fun i _ => hg i).trans (coe_sum _ _).symm⟩

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isR_max {x y : EReal} (hx : IsR x) (hy : IsR y) : IsR (max x y) := by
  obtain ⟨a, rfl⟩ := hx; obtain ⟨b, rfl⟩ := hy; exact ⟨max a b, (coe_max a b).symm⟩

/-- The larger of a real and a positive real is a positive real. -/
theorem isP_max {x ε : EReal} (hx : IsR x) (hε : IsP ε) : IsP (max x ε) := by
  obtain ⟨a, rfl⟩ := hx; obtain ⟨e, he, rfl⟩ := hε
  exact ⟨max a e, lt_max_of_lt_right he, (coe_max a e).symm⟩

theorem sqrt_coe_of_nonneg {r : ℝ} (h : 0 ≤ r) : Ideal.sqrt (r : EReal) = (Real.sqrt r : EReal) := by
  rw [Ideal.sqrt_coe, if_neg (not_lt.2 h)]

/-- A sum of squares of reals is the coercion of the real sum of squares. -/
theorem sumsq_coe {ι : Type} [Fintype ι] (g : ι → ℝ) :
    (∑ i, (g i : EReal) * (g i : EReal)) = ((∑ i, g i * g i : ℝ) : EReal) := by
  rw [coe_sum]; exact Finset.sum_congr rfl fun i _ => (EReal.coe_mul _ _).symm

/-- The Euclidean norm of a family of reals is a real. -/
theorem isR_norm {ι : Type} [Fintype ι] (u : ι → EReal) (h : ∀ i, IsR (u i)) : IsR (Ideal.sqrt (∑ i, u i * u i)) := by
  choose g hg using h
  refine ⟨Real.sqrt (∑ i, g i * g i), ?_⟩
  rw [show (∑ i, u i * u i) = ((∑ i, g i * g i : ℝ) : EReal) from by
    rw [← sumsq_coe]; exact Finset.sum_congr rfl fun i _ => by rw [hg i]]
  exact sqrt_coe_of_nonneg (Finset.sum_nonneg fun i _ => mul_self_nonneg _)

/-- A quotient of reals by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem isR_div {x y : EReal} (hx : IsR x) (hy : IsP y) : IsR (Ideal.div x y) := by
  obtain ⟨a, rfl⟩ := hx; obtain ⟨b, hb, rfl⟩ := hy; exact ⟨a / b, div_coe_coe a hb.ne'⟩

theorem isP_exp {x : EReal} (hx : IsR x) : IsP (Ideal.exp x) := by
  obtain ⟨a, rfl⟩ := hx; exact ⟨Real.exp a, Real.exp_pos a, rfl⟩

/-- The maximum of a nonempty finite family of reals, folded from −∞, is a real. -/
theorem isR_fold_max {ι : Type} [Fintype ι] [Nonempty ι] (z : ι → EReal) (hz : ∀ i, IsR (z i)) :
    IsR (Finset.univ.fold max ⊥ z) := by
  have e : Finset.univ.fold max ⊥ z = Finset.univ.sup z := rfl
  obtain ⟨i, _, hi⟩ := Finset.exists_mem_eq_sup Finset.univ Finset.univ_nonempty z
  rw [e, hi]; exact hz i

/-- The softmax weight of a real score among real scores is a real: exp (z k − M) / Σ_j exp (z j − M), M their maximum. -/
theorem isR_softmax {ι : Type} [Fintype ι] [Nonempty ι] (z : ι → EReal) (hz : ∀ i, IsR (z i)) (k : ι) :
    IsR (Ideal.div (Ideal.exp (z k - max ⊥ (Finset.univ.fold max ⊥ z)))
      (∑ j, Ideal.exp (z j - max ⊥ (Finset.univ.fold max ⊥ z)))) := by
  have hM : IsR (max ⊥ (Finset.univ.fold max ⊥ z)) := by
    rw [max_eq_right bot_le]; exact isR_fold_max z hz
  exact isR_div (isP_exp (isR_sub (hz k) hM)).isR (isP_sum _ fun j => isP_exp (isR_sub (hz j) hM))

/-- Scaling by the reciprocal of a positive real is dividing by it, on every extended real. -/
theorem mul_recip {g : EReal} (hg : IsP g) (v : EReal) : v * Ideal.div 1 g = Ideal.div v g := by
  obtain ⟨a, ha, rfl⟩ := hg
  rw [Ideal.div_coe ha.ne', Ideal.div_coe ha.ne', one_mul]

end Cert.LibReals

end
-- ==== Proof.Law.lean ====
/-
  The arithmetic that joins the two programs, on the extended reals.

  One row of the output is built from a family u k f of residuals (64 clusters k, 128 lanes f):
    n k = √(Σ_f (u k f)²),   d k = max (n k, ε),   v k f = u k f / d k.
  The kernel scales v by  1 / max (√(Σ_k (n k / d k)²), ε);  the reference divides v by
  max (√(Σ_k Σ_f (v k f)²), ε).  When every u k f is a real number and ε a positive real, the two radicands are one
  number, because  Σ_f (u k f / d k)² = (Σ_f (u k f)²) / (d k)² = (n k)² / (d k)²;  and dividing by a positive real is
  multiplying by its reciprocal, on every extended real.  Real-ness matters: at an infinite u the quotient u / d and
  the square root of an infinite sum do not obey these laws, which is why the inputs' finiteness is used.

  The file also carries the re-indexing of a sum over 8192 lanes as a sum over 64 clusters of sums over 128 lanes.
  (That a real stays real through the operations the row meets is in LibReals.)
-/
import proofs.«173652_j19292993093866_2_alg».proof.Proof.LibReals

noncomputable section

namespace Cert.Vlad

open Idealize.ShloMosaic Cert.LibReals

/-- The 8192 lanes are 64 clusters of 128 lanes: lane j is lane j % 128 of cluster j / 128. -/
def laneEquiv : Fin 8192 ≃ Fin 64 × Fin 128 where
  toFun j := (⟨j.val / 128, by have := j.isLt; omega⟩, ⟨j.val % 128, Nat.mod_lt _ (by decide)⟩)
  invFun p := ⟨128 * p.1.val + p.2.val, by have := p.1.isLt; have := p.2.isLt; omega⟩
  left_inv j := by apply Fin.ext; show 128 * (j.val / 128) + j.val % 128 = j.val; omega
  right_inv p := by
    have h1 := p.1.isLt; have h2 := p.2.isLt
    refine Prod.ext (Fin.ext ?_) (Fin.ext ?_)
    · show (128 * p.1.val + p.2.val) / 128 = p.1.val; omega
    · show (128 * p.1.val + p.2.val) % 128 = p.2.val; omega

theorem sum_lanes {M : Type} [AddCommMonoid M] (g : Fin 64 → Fin 128 → M) :
    (∑ j : Fin 8192, g (laneEquiv j).1 (laneEquiv j).2) = ∑ k, ∑ f, g k f := by
  rw [← Fintype.sum_prod_type (f := fun p : Fin 64 × Fin 128 => g p.1 p.2)]
  exact Fintype.sum_equiv laneEquiv _ _ fun j => rfl

/-- Over the reals: Σ_f (r f / d)² = (√(Σ_f (r f)²) / d)². -/
theorem real_row {ι : Type} [Fintype ι] (r : ι → ℝ) (d : ℝ) :
    (∑ f, r f / d * (r f / d)) = Real.sqrt (∑ f, r f * r f) / d * (Real.sqrt (∑ f, r f * r f) / d) := by
  rw [div_mul_div_comm, Real.mul_self_sqrt (Finset.sum_nonneg fun i _ => mul_self_nonneg _), Finset.sum_div]
  exact Finset.sum_congr rfl fun f _ => div_mul_div_comm _ _ _ _

/-- The two radicands are one number: Σ_k (n k / d k)² = Σ_k Σ_f (u k f / d k)², for real u and positive real ε. -/
theorem radicands {κ ι : Type} [Fintype κ] [Fintype ι] (u : κ → ι → EReal) (hu : ∀ k f, IsR (u k f)) (ε : EReal) (hε : IsP ε) :
    (∑ k, Ideal.div (Ideal.sqrt (∑ f, u k f * u k f)) (max (Ideal.sqrt (∑ f, u k f * u k f)) ε)
        * Ideal.div (Ideal.sqrt (∑ f, u k f * u k f)) (max (Ideal.sqrt (∑ f, u k f * u k f)) ε))
      = ∑ k, ∑ f, Ideal.div (u k f) (max (Ideal.sqrt (∑ f, u k f * u k f)) ε)
          * Ideal.div (u k f) (max (Ideal.sqrt (∑ f, u k f * u k f)) ε) := by
  choose r hr using hu
  obtain ⟨e, he, rfl⟩ := hε
  refine Finset.sum_congr rfl fun k _ => ?_
  have hs : (∑ f, u k f * u k f) = ((∑ f, r k f * r k f : ℝ) : EReal) := by
    rw [← sumsq_coe]; exact Finset.sum_congr rfl fun f _ => by rw [hr k f]
  have hn : Ideal.sqrt (∑ f, u k f * u k f) = (Real.sqrt (∑ f, r k f * r k f) : EReal) := by
    rw [hs]; exact sqrt_coe_of_nonneg (Finset.sum_nonneg fun i _ => mul_self_nonneg _)
  have hd : (0 : ℝ) < max (Real.sqrt (∑ f, r k f * r k f)) e := lt_max_of_lt_right he
  rw [hn, ← coe_max, div_coe_coe _ hd.ne', ← EReal.coe_mul, ← real_row, coe_sum]
  refine Finset.sum_congr rfl fun f _ => ?_
  rw [hr k f, div_coe_coe _ hd.ne', EReal.coe_mul]

/-- Both radicands are real, so their square root floored at ε is a positive real. -/
theorem isP_scale {κ ι : Type} [Fintype κ] [Fintype ι] (u : κ → ι → EReal) (hu : ∀ k f, IsR (u k f)) (ε : EReal) (hε : IsP ε) :
    IsP (max (Ideal.sqrt (∑ k, ∑ f, Ideal.div (u k f) (max (Ideal.sqrt (∑ f, u k f * u k f)) ε)
          * Ideal.div (u k f) (max (Ideal.sqrt (∑ f, u k f * u k f)) ε))) ε) := by
  have hv : ∀ k f, IsR (Ideal.div (u k f) (max (Ideal.sqrt (∑ f, u k f * u k f)) ε)) := fun k f =>
    isR_div (hu k f) (isP_max (isR_norm _ (hu k)) hε)
  choose w hw using hv
  have hs : (∑ k, ∑ f, Ideal.div (u k f) (max (Ideal.sqrt (∑ f, u k f * u k f)) ε)
          * Ideal.div (u k f) (max (Ideal.sqrt (∑ f, u k f * u k f)) ε))
      = ((∑ k, ∑ f, w k f * w k f : ℝ) : EReal) := by
    rw [coe_sum]; refine Finset.sum_congr rfl fun k _ => ?_
    rw [← sumsq_coe]; exact Finset.sum_congr rfl fun f _ => by rw [hw k f]
  rw [hs, sqrt_coe_of_nonneg (Finset.sum_nonneg fun k _ => Finset.sum_nonneg fun f _ => mul_self_nonneg _)]
  exact isP_max (isR_coe _) hε

end Cert.Vlad

end
-- ==== Proof.Row.lean ====
/-
  One row of the result, as a function of the row's residual family u k f (64 clusters, 128 lanes), in the two
  spellings the programs use, and their equality for real residuals.

    unit   : x f / max (√(Σ_g (x g)²), ε)
    logit  : Σ_f xn f · w k f + b k
    softmax: exp (z k − M) / Σ_j exp (z j − M),  M the maximum of the z
    res    : u k f = (xn f − cent k f) · soft k
    nrm    : n k = √(Σ_f (u k f)²)
    vlad   : v k f = u k f / max (n k, ε)           (each cluster's residual, normalised over its lanes)
    ratio  : n k / max (n k, ε)
    outK   : v k f · (1 / max (√(0 + Σ_k (ratio k)²), ε))          -- the kernel
    outR   : v k f / max (√(0 + Σ_k Σ_f (v k f)²), ε)               -- the reference
-/
import proofs.«173652_j19292993093866_2_alg».proof.Proof.Law

noncomputable section

namespace Cert.Vlad

open Idealize.ShloMosaic Cert.LibReals

/-- A row divided by the larger of its Euclidean norm and ε. -/
def unit (ε : EReal) (x : Fin 128 → EReal) (f : Fin 128) : EReal :=
  Ideal.div (x f) (max (Ideal.sqrt (∑ g, x g * x g)) ε)

/-- The row's score for cluster k: its inner product with row k of w, plus the bias. -/
def logit (xn : Fin 128 → EReal) (w : Fin 64 → Fin 128 → EReal) (b : Fin 64 → EReal) (k : Fin 64) : EReal :=
  (∑ f, xn f * w k f) + b k

/-- The softmax of 64 scores, shifted by their maximum (folded from the word ninf, and once more floored at it). -/
def softmax (ninf : EReal) (z : Fin 64 → EReal) (k : Fin 64) : EReal :=
  Ideal.div (Ideal.exp (z k - max ninf (Finset.univ.fold max ninf z)))
    (∑ j, Ideal.exp (z j - max ninf (Finset.univ.fold max ninf z)))

def res (xn : Fin 128 → EReal) (cent : Fin 64 → Fin 128 → EReal) (soft : Fin 64 → EReal) : Fin 64 → Fin 128 → EReal :=
  fun k f => (xn f - cent k f) * soft k

def nrm (u : Fin 64 → Fin 128 → EReal) (k : Fin 64) : EReal := Ideal.sqrt (∑ f, u k f * u k f)

def ratio (ε : EReal) (u : Fin 64 → Fin 128 → EReal) (k : Fin 64) : EReal := Ideal.div (nrm u k) (max (nrm u k) ε)

def vlad (ε : EReal) (u : Fin 64 → Fin 128 → EReal) (k : Fin 64) (f : Fin 128) : EReal :=
  Ideal.div (u k f) (max (nrm u k) ε)

def outK (ε one zero : EReal) (u : Fin 64 → Fin 128 → EReal) (k : Fin 64) (f : Fin 128) : EReal :=
  vlad ε u k f * Ideal.div one (max (Ideal.sqrt (zero + ∑ k, ratio ε u k * ratio ε u k)) ε)

def outR (ε zero : EReal) (u : Fin 64 → Fin 128 → EReal) (k : Fin 64) (f : Fin 128) : EReal :=
  Ideal.div (vlad ε u k f) (max (Ideal.sqrt (zero + ∑ k, ∑ f, vlad ε u k f * vlad ε u k f)) ε)

/-- One row of the result in the kernel's spelling, from the row of x, the 64 codebook rows, the weights and the bias. -/
def rowK (ε one zero ninf : EReal) (x : Fin 128 → EReal) (cent w : Fin 64 → Fin 128 → EReal) (b : Fin 64 → EReal) :
    Fin 64 → Fin 128 → EReal :=
  outK ε one zero (res (unit ε x) cent (softmax ninf (logit (unit ε x) w b)))

/-- The same row in the reference's spelling. -/
def rowR (ε zero ninf : EReal) (x : Fin 128 → EReal) (cent w : Fin 64 → Fin 128 → EReal) (b : Fin 64 → EReal) :
    Fin 64 → Fin 128 → EReal :=
  outR ε zero (res (unit ε x) cent (softmax ninf (logit (unit ε x) w b)))

/-- For real residuals and a positive real ε the kernel's row is the reference's row. -/
theorem outK_eq_outR {ε : EReal} {u : Fin 64 → Fin 128 → EReal} (hu : ∀ k f, IsR (u k f)) (hε : IsP ε)
    (k : Fin 64) (f : Fin 128) : outK ε 1 0 u k f = outR ε 0 u k f := by
  unfold outK outR
  rw [zero_add, zero_add,
    show (∑ k, ratio ε u k * ratio ε u k) = ∑ k, ∑ f, vlad ε u k f * vlad ε u k f from radicands u hu ε hε]
  exact mul_recip (isP_scale u hu ε hε) _

/-- For real inputs the kernel's row is the reference's row: the unit row, the scores, the softmax and the residuals
    are then all real, and the two radicands agree. The constants are the words' values: 1, 0 and −∞. -/
theorem rowK_eq_rowR {ε one zero ninf : EReal} (hε : IsP ε) (h1 : one = 1) (h0 : zero = 0) (hn : ninf = ⊥)
    {x : Fin 128 → EReal} {cent w : Fin 64 → Fin 128 → EReal} {b : Fin 64 → EReal}
    (hx : ∀ g, IsR (x g)) (hc : ∀ k f, IsR (cent k f)) (hw : ∀ k f, IsR (w k f)) (hb : ∀ k, IsR (b k))
    (k : Fin 64) (f : Fin 128) :
    rowK ε one zero ninf x cent w b k f = rowR ε 0 ninf x cent w b k f := by
  subst h1 h0 hn
  unfold rowK rowR
  refine outK_eq_outR (fun k f => ?_) hε k f
  have hu : ∀ g, IsR (unit ε x g) := fun g => isR_div (hx g) (isP_max (isR_norm x hx) hε)
  have hz : ∀ k, IsR (logit (unit ε x) w b k) := fun k =>
    isR_add (isR_sum _ fun f => isR_mul (hu f) (hw k f)) (hb k)
  exact isR_mul (isR_sub (hu f) (hc k f)) (isR_softmax _ hz k)

end Cert.Vlad

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.KernelRead.lean ====
/-
  The generic cluster block read at an index.

  Over the body's three values xn [392,128], soft [392,64], cent [64,128], row p of the block has the residual family
    u k f = (xn (p,f) − cent (k,f)) · soft (p,k),
  and every later value of the body is a function of that family alone: the norm column, its floor, the squared
  ratios, their running sum, the reciprocal scale, and the block's entry (0,p,f), which is the kernel's row spelling
  `outK` at (k,f).
-/
import proofs.«173652_j19292993093866_2_alg».proof.Proof.Pieces
import proofs.«173652_j19292993093866_2_alg».proof.Proof.Row
import proofs.«173652_j19292993093866_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

variable (xn : FVec Ideal S392x128 .f32) (soft : FVec Ideal S392x64 .f32) (cent : FVec Ideal S64x128 .f32)

/-- ε, 1 and 0 as the body's float words read them. -/
abbrev eps : EReal := Ideal.ofBits .f32 0x2B8CBCCC#32
abbrev one : EReal := Ideal.ofBits .f32 0x3F800000#32
abbrev zero : EReal := Ideal.ofBits .f32 0x00000000#32

/-- Row p's residual family. -/
def rowU (p : Fin 392) : Fin 64 → Fin 128 → EReal :=
  Vlad.res (fun f => xn (ix2 p f)) (fun k f => cent (ix2 k f)) (fun k => soft (ix2 p k))

theorem resid_apply (k : Fin 64) (p : Fin 392) (f : Fin 128) :
    resid k xn soft cent (ix2 p f) = rowU xn soft cent p k f := by
  unfold resid rowU Vlad.res
  rw [mulf_apply, subf_apply, ValueIdx.broadcastTo_1b_ab_apply, LibKeepdims.broadcastTo_a1_ab_apply]
  rw [extractStridedSlice_apply _ _ _ _ (ix2 k f) (fun a => match a with
        | ⟨0, _⟩ => by show k.val = k.val + 0; omega
        | ⟨1, _⟩ => by show f.val = 0 + f.val; omega),
      extractStridedSlice_apply _ _ _ _ (ix2 p k) (fun a => match a with
        | ⟨0, _⟩ => by show p.val = 0 + p.val; omega
        | ⟨1, _⟩ => by show k.val = k.val + 0; omega)]

theorem norm_apply (k : Fin 64) (p : Fin 392) (u : Fin 1) :
    norm k xn soft cent (ix2 p u) = Vlad.nrm (rowU xn soft cent p) k := by
  unfold norm Vlad.nrm
  show Ideal.sqrt (shapeCast S392x1 _ shapeCasts_S392_S392x1 (ix2 p u)) = _
  rw [LibKeepdims.shapeCast_a_a1_apply]
  show Ideal.sqrt (Ideal.reduceAdd reduces_S392x128_S392 _ (ix1 p)) = _
  rw [LibKeepdims.reduceAdd_row]
  congr 1
  refine Finset.sum_congr rfl fun f _ => ?_
  rw [mulf_apply, resid_apply]

theorem denom_apply (k : Fin 64) (p : Fin 392) (u : Fin 1) :
    denom k xn soft cent (ix2 p u) = max (Vlad.nrm (rowU xn soft cent p) k) eps := by
  unfold denom
  rw [maximumf_apply, norm_apply]
  rfl

theorem ratio2_apply (k : Fin 64) (p : Fin 392) (u : Fin 1) :
    ratio2 k xn soft cent (ix2 p u)
      = Vlad.ratio eps (rowU xn soft cent p) k * Vlad.ratio eps (rowU xn soft cent p) k := by
  unfold ratio2 Vlad.ratio
  rw [mulf_apply, divf_apply, norm_apply, denom_apply]

/-- The running sum after n clusters: the zero word plus the first n squared ratios. -/
theorem sumsq_apply (n : ℕ) (h : n ≤ 64) (p : Fin 392) (u : Fin 1) :
    sumsq xn soft cent n h (ix2 p u)
      = zero + ∑ i ∈ Finset.range n, (if hi : i < 64 then
          Vlad.ratio eps (rowU xn soft cent p) ⟨i, hi⟩ * Vlad.ratio eps (rowU xn soft cent p) ⟨i, hi⟩ else 0) := by
  induction n with
  | zero =>
    rw [Finset.sum_range_zero, add_zero]
    rfl
  | succ n ih =>
    have hn : n < 64 := h
    show sumsq xn soft cent n (Nat.le_of_succ_le h) (ix2 p u) + ratio2 ⟨n, h⟩ xn soft cent (ix2 p u) = _
    rw [ih, ratio2_apply, Finset.sum_range_succ, dif_pos hn, add_assoc]

theorem invg_apply (p : Fin 392) (u : Fin 1) :
    invg xn soft cent (ix2 p u)
      = Ideal.div one (max (Ideal.sqrt (zero + ∑ k : Fin 64,
          Vlad.ratio eps (rowU xn soft cent p) k * Vlad.ratio eps (rowU xn soft cent p) k)) eps) := by
  unfold invg
  show Ideal.div one (max (Ideal.sqrt (sumsq xn soft cent 64 (Nat.le_refl 64) (ix2 p u))) eps) = _
  rw [sumsq_apply, ← Fin.sum_univ_eq_sum_range (fun i => if hi : i < 64 then
          Vlad.ratio eps (rowU xn soft cent p) ⟨i, hi⟩ * Vlad.ratio eps (rowU xn soft cent p) ⟨i, hi⟩ else 0) 64]
  congr 4

/-- Entry (0,p,f) of cluster k's block is the kernel's row spelling at (k,f). -/
theorem block_apply (k : Fin 64) (u : Fin 1) (p : Fin 392) (f : Fin 128) :
    block k xn soft cent (ix3 u p f) = Vlad.outK eps one zero (rowU xn soft cent p) k f := by
  unfold block Vlad.outK Vlad.vlad
  rw [ValueIdx.shapeCast_ab_1ab_apply, mulf_apply, divf_apply, LibKeepdims.broadcastTo_a1_ab_apply,
    LibKeepdims.broadcastTo_a1_ab_apply, resid_apply, denom_apply, invg_apply]

end Cert.KernelIdeal.Body

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«173652_j19292993093866_2_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.KernelHead.lean ====
/-
  The body's three values read at an index.

  xn (p,f) is row p of the x block divided by the larger of its norm and ε; the logits are the matrix product of xn
  with the transposed weight block (both passed through a narrower float format, which changes nothing at the
  exact values) plus the bias row; soft is their softmax along the clusters; cent is the codebook block with its
  leading unit axis dropped.
-/
import proofs.«173652_j19292993093866_2_alg».proof.Proof.KernelRead
import proofs.«173652_j19292993093866_2_alg».proof.Proof.LibBlockMatmul

noncomputable section

namespace Cert.KernelIdeal.Body

open Idealize.ShloMosaic Idealize.ShloMosaic.ValueIdx Cert.KernelIdeal Cert.KernelIdeal.Gen

section Generic
variable {F : FTy → Type} [FloatOps F]

/-- The scores [392,64]: xn · wᵀ + b. -/
def logitsV (x0 : Vec F S1x392x128 .f32) (x2 : Vec F S64x128 .f32) (x3 : Vec F S1x64 .f32) : FVec F S392x64 .f32 :=
  addf (matmul dot_S392x128_S128x64_S392x64_1_0_0_1_n_n none (truncf .bf16 (k0_pay3 x0) bitsLt_bf16_f32)
      (transpose S128x64 [1, 0] (truncf .bf16 x2 bitsLt_bf16_f32) transposes_S64x128_p1_0_S128x64)
      (constant S392x64 .f32 0x00000000#32))
    (broadcastTo S392x64 (shapeCast S1x64 x3 shapeCasts_S1x64_S1x64) broadcasts_S1x64_S392x64)

/-- The softmax of a [392,64] array along its second axis, as the body spells it. -/
def softV (Z : FVec F S392x64 .f32) : FVec F S392x64 .f32 :=
  divf (exp (subf Z (broadcastTo S392x64 (shapeCast S392x1 (maximumf (broadcast S392 (Scalar.ofBits (F := F) .f32 0xFF800000#32))
      (multiReduction .maximumf [1] S392 Z 0xFF800000#32 reduces_S392x64_S392 (.inl rfl) rfl)) shapeCasts_S392_S392x1)
      broadcasts_S392x1_S392x64)))
    (broadcastTo S392x64 (shapeCast S392x1 (multiReduction .add [1] S392
      (exp (subf Z (broadcastTo S392x64 (shapeCast S392x1 (maximumf (broadcast S392 (Scalar.ofBits (F := F) .f32 0xFF800000#32))
        (multiReduction .maximumf [1] S392 Z 0xFF800000#32 reduces_S392x64_S392 (.inl rfl) rfl)) shapeCasts_S392_S392x1)
        broadcasts_S392x1_S392x64)))
      0x00000000#32 reduces_S392x64_S392 (.inl rfl) rfl) shapeCasts_S392_S392x1) broadcasts_S392x1_S392x64)

theorem pay4_eq (x0 : Vec F S1x392x128 .f32) (x2 : Vec F S64x128 .f32) (x3 : Vec F S1x64 .f32) :
    k0_pay4 x0 x2 x3 = softV (logitsV x0 x2 x3) := rfl

end Generic

abbrev ninf : EReal := Ideal.ofBits .f32 0xFF800000#32

/-- Row p of the x block. -/
abbrev xrow (x0 : Vec Ideal S1x392x128 .f32) (p : Fin 392) : Fin 128 → EReal := fun g => x0 (ix3 (0 : Fin 1) p g)

theorem xn_apply (x0 : Vec Ideal S1x392x128 .f32) (p : Fin 392) (f : Fin 128) :
    k0_pay3 x0 (ix2 p f) = Vlad.unit eps (xrow x0 p) f := by
  unfold k0_pay3 Vlad.unit
  show Ideal.div (shapeCast S392x128 x0 shapeCasts_S1x392x128_S392x128 (ix2 p f))
    (broadcastTo S392x128 _ broadcasts_S392x1_S392x128 (ix2 p f)) = _
  rw [shapeCast_1ab_ab_apply, LibKeepdims.broadcastTo_a1_ab_apply]
  show Ideal.div _ (max (Ideal.sqrt (shapeCast S392x1 _ shapeCasts_S392_S392x1 (ix2 p (0 : Fin 1)))) eps) = _
  rw [LibKeepdims.shapeCast_a_a1_apply]
  show Ideal.div _ (max (Ideal.sqrt (Ideal.reduceAdd reduces_S392x128_S392 _ (ix1 p))) eps) = _
  rw [LibKeepdims.reduceAdd_row]
  refine congrArg (fun s => Ideal.div (x0 (ix3 (0 : Fin 1) p f)) (max (Ideal.sqrt s) eps)) (Finset.sum_congr rfl fun g _ => ?_)
  rw [mulf_apply, shapeCast_1ab_ab_apply]

theorem logits_apply (x0 : Vec Ideal S1x392x128 .f32) (x2 : Vec Ideal S64x128 .f32) (x3 : Vec Ideal S1x64 .f32)
    (p : Fin 392) (k : Fin 64) :
    logitsV x0 x2 x3 (ix2 p k)
      = Vlad.logit (Vlad.unit eps (xrow x0 p)) (fun k f => x2 (ix2 k f)) (fun k => x3 (ix2 (0 : Fin 1) k)) k := by
  unfold logitsV Vlad.logit
  show FloatOps.matmul dot_S392x128_S128x64_S392x64_1_0_0_1_n_n none _ _ (constant (F := Ideal) S392x64 .f32 0x00000000#32) (ix2 p k)
    + broadcastTo S392x64 (shapeCast S1x64 x3 shapeCasts_S1x64_S1x64) broadcasts_S1x64_S392x64 (ix2 p k) = _
  rw [Cert.BlockMatmul.matmul_zero_fin dot_S392x128_S128x64_S392x64_1_0_0_1_n_n rfl rfl (fun _ _ => rfl) (fun _ _ => rfl)
    (fun _ _ => rfl) (fun _ _ => rfl), broadcastTo_1b_ab_apply, shapeCast_self]
  refine congrArg (· + x3 (ix2 (0 : Fin 1) k)) (Finset.sum_congr rfl fun f _ => ?_)
  refine congrArg₂ (· * ·) ?_ ?_
  · exact xn_apply x0 p f
  · exact transpose_apply [1, 0] _ transposes_S64x128_p1_0_S128x64 (ix2 f k) (ix2 k f)
      (fun b => match b with | ⟨0, _⟩ => rfl | ⟨1, _⟩ => rfl)

theorem softV_apply (Z : FVec Ideal S392x64 .f32) (p : Fin 392) (k : Fin 64) :
    softV Z (ix2 p k) = Vlad.softmax ninf (fun j => Z (ix2 p j)) k := by
  have hM : ∀ u : Fin 1, shapeCast S392x1 (maximumf (broadcast S392 (Scalar.ofBits (F := Ideal) .f32 0xFF800000#32))
      (multiReduction .maximumf [1] S392 Z 0xFF800000#32 reduces_S392x64_S392 (.inl rfl) rfl)) shapeCasts_S392_S392x1 (ix2 p u)
      = max ninf (Finset.univ.fold max ninf fun j => Z (ix2 p j)) := by
    intro u
    rw [LibKeepdims.shapeCast_a_a1_apply, maximumf_apply, broadcast_apply]
    refine congrArg (max ninf) ((Ideal.multiReduction_maximumf_single Z _ reduces_S392x64_S392 _ _ (ix1 p)).trans ?_)
    exact congrArg (fun g => Finset.univ.fold max ninf g) (funext fun j => congrArg Z (LibKeepdims.lift_row _ p j))
  unfold softV Vlad.softmax
  show Ideal.div (Ideal.exp (Z (ix2 p k) - broadcastTo S392x64 _ broadcasts_S392x1_S392x64 (ix2 p k)))
    (broadcastTo S392x64 (shapeCast S392x1 _ shapeCasts_S392_S392x1) broadcasts_S392x1_S392x64 (ix2 p k)) = _
  rw [LibKeepdims.broadcastTo_a1_ab_apply, LibKeepdims.broadcastTo_a1_ab_apply, hM, LibKeepdims.shapeCast_a_a1_apply]
  show Ideal.div _ (Ideal.reduceAdd reduces_S392x64_S392 _ (ix1 p)) = _
  rw [LibKeepdims.reduceAdd_row]
  refine congrArg (Ideal.div _) (Finset.sum_congr rfl fun j _ => ?_)
  show Ideal.exp (Z (ix2 p j) - broadcastTo S392x64 _ broadcasts_S392x1_S392x64 (ix2 p j)) = _
  rw [LibKeepdims.broadcastTo_a1_ab_apply, hM]

theorem soft_apply (x0 : Vec Ideal S1x392x128 .f32) (x2 : Vec Ideal S64x128 .f32) (x3 : Vec Ideal S1x64 .f32)
    (p : Fin 392) (k : Fin 64) :
    k0_pay4 x0 x2 x3 (ix2 p k)
      = Vlad.softmax ninf (Vlad.logit (Vlad.unit eps (xrow x0 p)) (fun k f => x2 (ix2 k f)) (fun k => x3 (ix2 (0 : Fin 1) k))) k := by
  rw [pay4_eq, softV_apply]
  exact congrArg (fun z => Vlad.softmax ninf z k) (funext fun j => logits_apply x0 x2 x3 p j)

theorem cent_apply (x1 : Vec Ideal S1x64x128 .f32) (k : Fin 64) (f : Fin 128) :
    k0_pay5 x1 (ix2 k f) = x1 (ix3 (0 : Fin 1) k f) := by
  unfold k0_pay5
  exact shapeCast_1ab_ab_apply _ _ k f

end Cert.KernelIdeal.Body

end
-- ==== Proof.KernelBlock.lean ====
/-
  The output block after the body, as one function of the four input blocks, index by index.

  Lane j of the 8192 output lanes belongs to cluster j / 128 and is lane j % 128 of that cluster's block; row p of
  the block depends on row p of the x block only. So entry (0,p,j) is the kernel's row spelling `rowK` of row p,
  at (j / 128, j % 128). The 64 stores cover the block: lane j is under store j / 128.
-/
import proofs.«173652_j19292993093866_2_alg».proof.Proof.KernelHead

noncomputable section

namespace Cert.KernelIdeal.Body

open Idealize.ShloMosaic Idealize.ShloMosaic.ValueIdx Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- Every cluster is in the list of stores. -/
theorem mem_ks : ∀ k : Fin 64, k ∈ ks := by decide

variable (x0 : Vec Ideal S1x392x128 .f32) (x1 : Vec Ideal S1x64x128 .f32) (x2 : Vec Ideal S64x128 .f32) (x3 : Vec Ideal S1x64 .f32)

/-- The output block, index by index. -/
def blockG (y : S1x392x8192.Idx) : EReal :=
  Vlad.rowK eps one zero ninf (xrow x0 (y 1)) (fun k f => x1 (ix3 (0 : Fin 1) k f)) (fun k f => x2 (ix2 k f))
    (fun k => x3 (ix2 (0 : Fin 1) k)) (Vlad.laneEquiv (y 2)).1 (Vlad.laneEquiv (y 2)).2

/-- Row p's residual family over the body's three values, in terms of the input blocks. -/
theorem rowU_eq (p : Fin 392) :
    rowU (k0_pay3 x0) (k0_pay4 x0 x2 x3) (k0_pay5 x1) p
      = Vlad.res (Vlad.unit eps (xrow x0 p)) (fun k f => x1 (ix3 (0 : Fin 1) k f))
          (Vlad.softmax ninf (Vlad.logit (Vlad.unit eps (xrow x0 p)) (fun k f => x2 (ix2 k f)) (fun k => x3 (ix2 (0 : Fin 1) k)))) := by
  unfold rowU
  have e1 : (fun f => k0_pay3 x0 (ix2 p f)) = Vlad.unit eps (xrow x0 p) := funext fun f => xn_apply x0 p f
  have e2 : (fun k f => k0_pay5 x1 (ix2 k f)) = fun k f => x1 (ix3 (0 : Fin 1) k f) :=
    funext fun k => funext fun f => cent_apply x1 k f
  have e3 : (fun k => k0_pay4 x0 x2 x3 (ix2 p k))
      = Vlad.softmax ninf (Vlad.logit (Vlad.unit eps (xrow x0 p)) (fun k f => x2 (ix2 k f)) (fun k => x3 (ix2 (0 : Fin 1) k))) :=
    funext fun k => soft_apply x0 x2 x3 p k
  rw [e1, e2, e3]

theorem out_apply (y : S1x392x8192.Idx) : out0_4 x0 x1 x2 x3 y = blockG x0 x1 x2 x3 y := by
  rw [out_eq]
  simp only [View.ld_unit_zero (S := S1x392x128) hz3, View.ld_unit_zero (S := S64x128) hz2,
    View.ld_unit_zero (S := S1x64) hz2, View.ld_unit_zero (S := S1x64x128) hz3]
  refine View.canon_apply_of_pieces (Val := Elt Ideal) (e := .f32) (blockG x0 x1 x2 x3) _ ?_ y ?_
  · -- each store's block, at its index, is the function at the index under it
    intro pc hpc x
    obtain ⟨k, -, rfl⟩ := List.mem_map.mp hpc
    obtain ⟨u, p, f, rfl⟩ : ∃ (u : Fin 1) (p : Fin 392) (f : Fin 128), x = ix3 u p f := ⟨x 0, x 1, x 2, eq_ix3 x⟩
    show block k (k0_pay3 x0) (k0_pay4 x0 x2 x3) (k0_pay5 x1) (ix3 u p f) = blockG x0 x1 x2 x3 ((lanes k).emb (ix3 u p f))
    rw [block_apply, rowU_eq]
    have h1 : ((lanes k).emb (ix3 u p f)) 1 = p := Fin.ext (by show 0 + 1 * p.val = p.val; omega)
    have h2 : ((lanes k).emb (ix3 u p f)) 2 = Vlad.laneEquiv.symm (k, f) :=
      Fin.ext (by show 128 * k.val + 1 * f.val = 128 * k.val + f.val; omega)
    unfold blockG Vlad.rowK
    rw [h1, h2, Equiv.apply_symm_apply]
  · -- lane j is under store j / 128
    have hy0 : (y 0).val < 1 := (y 0).isLt
    have hy1 : (y 1).val < 392 := (y 1).isLt
    have hy2 : (y 2).val < 8192 := (y 2).isLt
    refine ⟨piece (Vlad.laneEquiv (y 2)).1 _ _ _, List.mem_map.mpr ⟨_, mem_ks _, rfl⟩, ?_⟩
    show y ∈ (lanes (Vlad.laneEquiv (y 2)).1).set
    rw [Rect.mem_set_unit]
    intro a
    match a with
    | ⟨0, _⟩ => show 0 ≤ (y 0).val ∧ (y 0).val < 0 + 1; omega
    | ⟨1, _⟩ => show 0 ≤ (y 1).val ∧ (y 1).val < 0 + 392; omega
    | ⟨2, _⟩ => show 128 * ((y 2).val / 128) ≤ (y 2).val ∧ (y 2).val < 128 * ((y 2).val / 128) + 128; omega

end Cert.KernelIdeal.Body

end
-- ==== Proof.KernelArray.lean ====
/-
  From the blocks to the whole array, and through the host operations around the region.

  The region's output array [8,784,8192] is tiled by 16 blocks [1,392,8192], one per grid point (n,t): rows
  392·t … 392·t+391 of plane n. Row r of plane n of the output depends on row r of plane n of the reshaped x, on
  plane n of the gathered codebook, and on the whole weight and bias arrays — so each block is the restriction of one
  whole-array function, and the array after the run is that function. The host then only re-labels rows:
  row 49·c + d of plane n is (n,c,d).
-/
import proofs.«173652_j19292993093866_2_alg».proof.Proof.KernelBlock
import Idealize.ShloMosaic.Lib.StableHlo.Run
import Idealize.ShloMosaic.Lib.Pipeline.Value

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (m : (ℓ : Loc nD τ sig) → Buf (Elt Ideal) ℓ) (ρ : Dev nD → PrngReg)

/-- The region's output array as one function of the four arrays it reads. -/
def arrG (A0 : S8x784x128.Idx → EReal) (A1 : S8x64x128.Idx → EReal) (A2 : S64x128.Idx → EReal) (A3 : S1x64.Idx → EReal)
    (i : S8x784x8192.Idx) : EReal :=
  Vlad.rowK eps one zero ninf (fun g => A0 (ix3 (i 0) (i 1) g)) (fun k f => A1 (ix3 (i 0) k f)) (fun k f => A2 (ix2 k f))
    (fun k => A3 (ix2 (0 : Fin 1) k)) (Vlad.laneEquiv (i 2)).1 (Vlad.laneEquiv (i 2)).2

/-- The printed index maps over the grid: the x window moves with the output window on planes and row tiles, the
    codebook window on planes only, the weight and bias windows not at all. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 8 ∧ win0_4.index t (1 : Fin 3) < 2 ∧ win0_4.index t (2 : Fin 3) = 0 :=
  (by decide +kernel : ∀ t : Fin grid0.N, _)

/-- Every (plane, row tile) is some grid point's. -/
theorem idx_onto : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-- What grid point t writes back is block t of `arrG` of the arrays as the region finds them. -/
theorem flushed_eq (c : Dev nD) (t : Fin cfg0.N) :
    (dats m 0 c).flushed 4 t = ((cfg0.win 4).blk t).view.read (Elt Ideal)
      (arrG (V m c main_v0) (V m c main_v7) (V m c main_arg2) (V m c main_v8)) := by
  show (cfg0.win 4).cut (grid0.coords t) ((dats m 0 c).after 4 t) = _
  rw [after0_4]
  obtain ⟨e00, e01, e02, e10, e11, e12, e20, e21, e30, e31, b0, b1, e42⟩ := idx_facts t
  funext j
  have hj0 : (j 0).val < 1 := (j 0).isLt
  have hj1 : (j 1).val < 392 := (j 1).isLt
  have hj2 : (j 2).val < 8192 := (j 2).isLt
  show out0_4 (iblk m c 0 t) (iblk m c 1 t) (iblk m c 2 t) (iblk m c 3 t) j
    = arrG (V m c main_v0) (V m c main_v7) (V m c main_arg2) (V m c main_v8) (((cfg0.win 4).blk t).view.emb j)
  refine (out_apply (iblk m c 0 t) (iblk m c 1 t) (iblk m c 2 t) (iblk m c 3 t) j).trans ?_
  unfold blockG arrG
  have h0 : xrow (iblk m c 0 t) (j 1)
      = fun g => V m c main_v0 (ix3 ((((cfg0.win 4).blk t).view.emb j) 0) ((((cfg0.win 4).blk t).view.emb j) 1) g) :=
    funext fun g => by
      show V m c main_v0 (((cfg0.win 0).blk t).view.emb (ix3 (0 : Fin 1) (j 1) g)) = _
      refine congrArg (V m c main_v0) (funext fun a => Fin.ext ?_)
      match a with
      | ⟨0, _⟩ => show win0_0.index t (0 : Fin 3) * 1 + 1 * 0 = win0_4.index t (0 : Fin 3) * 1 + 1 * (j 0).val; omega
      | ⟨1, _⟩ => show win0_0.index t (1 : Fin 3) * 392 + 1 * (j 1).val = win0_4.index t (1 : Fin 3) * 392 + 1 * (j 1).val; omega
      | ⟨2, _⟩ => show win0_0.index t (2 : Fin 3) * 128 + 1 * g.val = g.val; omega
  have h1 : (fun (k : Fin 64) (f : Fin 128) => iblk m c 1 t (ix3 (0 : Fin 1) k f))
      = fun k f => V m c main_v7 (ix3 ((((cfg0.win 4).blk t).view.emb j) 0) k f) :=
    funext fun k => funext fun f => by
      show V m c main_v7 (((cfg0.win 1).blk t).view.emb (ix3 (0 : Fin 1) k f)) = _
      refine congrArg (V m c main_v7) (funext fun a => Fin.ext ?_)
      match a with
      | ⟨0, _⟩ => show win0_1.index t (0 : Fin 3) * 1 + 1 * 0 = win0_4.index t (0 : Fin 3) * 1 + 1 * (j 0).val; omega
      | ⟨1, _⟩ => show win0_1.index t (1 : Fin 3) * 64 + 1 * k.val = k.val; omega
      | ⟨2, _⟩ => show win0_1.index t (2 : Fin 3) * 128 + 1 * f.val = f.val; omega
  have h2 : (fun (k : Fin 64) (f : Fin 128) => iblk m c 2 t (ix2 k f)) = fun k f => V m c main_arg2 (ix2 k f) :=
    funext fun k => funext fun f => by
      show V m c main_arg2 (((cfg0.win 2).blk t).view.emb (ix2 k f)) = _
      refine congrArg (V m c main_arg2) (funext fun a => Fin.ext ?_)
      match a with
      | ⟨0, _⟩ => show win0_2.index t (0 : Fin 2) * 64 + 1 * k.val = k.val; omega
      | ⟨1, _⟩ => show win0_2.index t (1 : Fin 2) * 128 + 1 * f.val = f.val; omega
  have h3 : (fun (k : Fin 64) => iblk m c 3 t (ix2 (0 : Fin 1) k)) = fun k => V m c main_v8 (ix2 (0 : Fin 1) k) :=
    funext fun k => by
      show V m c main_v8 (((cfg0.win 3).blk t).view.emb (ix2 (0 : Fin 1) k)) = _
      refine congrArg (V m c main_v8) (funext fun a => Fin.ext ?_)
      match a with
      | ⟨0, _⟩ => show win0_3.index t (0 : Fin 2) * 1 + 1 * 0 = 0; omega
      | ⟨1, _⟩ => show win0_3.index t (1 : Fin 2) * 64 + 1 * k.val = k.val; omega
  have h4 : (j 2) = (((cfg0.win 4).blk t).view.emb j) 2 :=
    Fin.ext (by show (j 2).val = win0_4.index t (2 : Fin 3) * 8192 + 1 * (j 2).val; omega)
  rw [h0, h1, h2, h3, ← h4]

/-- An index is in grid point t's block iff each coordinate is in the block's range on its axis. -/
theorem mem_blk (t : Fin cfg0.N) (i : S8x784x8192.Idx) :
    i ∈ ((cfg0.win 4).blk t).view.set ↔ ∀ a : Fin 3, win0_4.index t a * S1x392x8192.size a ≤ (i a).val
      ∧ (i a).val < win0_4.index t a * S1x392x8192.size a + S1x392x8192.size a := by
  show i ∈ ((View.whole main_v9).slice (win0_4.rect t)).set ↔ _
  rw [View.set_slice_whole, Rect.mem_set_unit]
  exact Iff.rfl

/-- The blocks cover the array: row r of plane n is in the block of grid point (n, r / 392). -/
theorem cover (i : S8x784x8192.Idx) : ∃ t : Fin cfg0.N, (cfg0.win 4).flush t = true ∧ i ∈ ((cfg0.win 4).blk t).view.set := by
  have hi0 : (i 0).val < 8 := (i 0).isLt
  have hi1 : (i 1).val < 784 := (i 1).isLt
  have hi2 : (i 2).val < 8192 := (i 2).isLt
  obtain ⟨t, ht⟩ := idx_onto ⟨(i 0).val, hi0⟩ ⟨(i 1).val / 392, by omega⟩
  have q0 : win0_4.index t (0 : Fin 3) = (i 0).val := congrFun ht 0
  have q1 : win0_4.index t (1 : Fin 3) = (i 1).val / 392 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 392 ≤ (i 1).val ∧ (i 1).val < win0_4.index t (1 : Fin 3) * 392 + 392; omega
  | ⟨2, _⟩ => show win0_4.index t (2 : Fin 3) * 8192 ≤ (i 2).val ∧ (i 2).val < win0_4.index t (2 : Fin 3) * 8192 + 8192; omega

/-- The output array after the run. -/
theorem final (c : Dev nD) :
    (dats m 0 c).arrAt 4 cfg0.N = arrG (V m c main_v0) (V m c main_v7) (V m c main_arg2) (V m c main_v8) :=
  (dats m 0 c).arrAt_eq_of_cover 4 _ (fun t _ => flushed_eq m c t) cover

end Cert.KernelIdeal.Arr

end
-- ==== Proof.KernelResult.lean ====
/-
  The kernel program's result, read at an index.

  Before the region the host reshapes x to [8,784,128] (row 49·c + d of plane n is x(n,c,d,·)), gathers the 64
  codebook rows of each plane, and reshapes the bias to [1,64]; after it, it reshapes the region's array back to
  [8,16,49,8192]. So the result at (n,c,d,j) is the kernel's row spelling of the row x(n,c,d,·).
-/
import proofs.«173652_j19292993093866_2_alg».proof.Proof.KernelArray

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (m : (ℓ : Loc nD τ sig) → Buf (Elt Ideal) ℓ) (ρ : Dev nD → PrngReg)

/-- The gathered codebook, as the host computes it from the codebook array and the row indices (a negative index
    counted from the end, then the rows gathered). -/
def centK (a1 : (⟨S8x256x128, .f32⟩ : BufTy).Contents (Elt Ideal)) (a4 : (⟨S64, .i32⟩ : BufTy).Contents (Elt Ideal)) :
    (⟨S8x64x128, .f32⟩ : BufTy).Contents (Elt Ideal) :=
  Host.gather gather_S8x256x128_S64x1_S8x64x128_02_1_n_n_1_1_81128 a1
    (broadcastInDim S64x1 ![0] bcast_S64_S64x1_0
      (select (cmpi .slt a4 (broadcastInDim S64 ![] bcast_S_S64 (constantI S_ 32 0#32)))
        (addi a4 (broadcastInDim S64 ![] bcast_S_S64 (constantI S_ 32 256#32))) a4))

theorem V_v0 (c : Dev nD) :
    V m c main_v0 = shapeCast S8x784x128 (m ((c : Thread nD τ).loc main_arg0)) shapeCasts_S8x16x49x128_S8x784x128 := by
  show StableHlo.after hostOps0 (fun b => m (c, b)) (Proc.devRef .tc main_v0) = _
  after_results
  rfl

theorem V_v7 (c : Dev nD) :
    V m c main_v7 = centK (m ((c : Thread nD τ).loc main_arg1)) (m ((c : Thread nD τ).loc main_arg4)) := by
  show StableHlo.after hostOps0 (fun b => m (c, b)) (Proc.devRef .tc main_v7) = _
  after_results
  rfl

theorem V_v8 (c : Dev nD) :
    V m c main_v8 = shapeCast S1x64 (m ((c : Thread nD τ).loc main_arg3)) shapeCasts_S64_S1x64 := by
  show StableHlo.after hostOps0 (fun b => m (c, b)) (Proc.devRef .tc main_v8) = _
  after_results
  rfl

/-- The result array after the run: the region's array with its rows re-labelled. -/
def result (c : Dev nD) : S8x16x49x8192.Idx → EReal :=
  shapeCast S8x16x49x8192
    (arrG (shapeCast S8x784x128 (m ((c : Thread nD τ).loc main_arg0)) shapeCasts_S8x16x49x128_S8x784x128)
      (centK (m ((c : Thread nD τ).loc main_arg1)) (m ((c : Thread nD τ).loc main_arg4)))
      (m ((c : Thread nD τ).loc main_arg2))
      (shapeCast S1x64 (m ((c : Thread nD τ).loc main_arg3)) shapeCasts_S64_S1x64))
    shapeCasts_S8x784x8192_S8x16x49x8192

theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  unfold result
  rw [← V_v0, ← V_v7, ← V_v8, ← V_main_arg2 m c, ← final m c]
  exact congrArg (fun A => shapeCast S8x16x49x8192 A shapeCasts_S8x784x8192_S8x16x49x8192)
    (Pipeline.withArrays_arr spec0 launch0.win.arr_inj c _ _ 4)

/-- The result at (n,c,d,j). -/
theorem result_at (c0 : Dev nD) (n : Fin 8) (c : Fin 16) (d : Fin 49) (j : Fin 8192) :
    result m c0 (ix4 n c d j)
      = Vlad.rowK eps one zero ninf (fun g => m ((c0 : Thread nD τ).loc main_arg0) (ix4 n c d g))
          (fun k f => centK (m ((c0 : Thread nD τ).loc main_arg1)) (m ((c0 : Thread nD τ).loc main_arg4)) (ix3 n k f))
          (fun k f => m ((c0 : Thread nD τ).loc main_arg2) (ix2 k f))
          (fun k => m ((c0 : Thread nD τ).loc main_arg3) (ix1 k))
          (Vlad.laneEquiv j).1 (Vlad.laneEquiv j).2 := by
  have hn := n.isLt; have hc := c.isLt; have hd := d.isLt; have hj := j.isLt
  unfold result
  rw [shapeCast_apply _ shapeCasts_S8x784x8192_S8x16x49x8192 (ix4 n c d j)
    (ix3 n (⟨49 * c.val + d.val, by omega⟩ : Fin 784) j) (by
      rw [Shape.rowMajor_val_four, Shape.rowMajor_val_three]
      show (n.val * 784 + (49 * c.val + d.val)) * 8192 + j.val = ((n.val * 16 + c.val) * 49 + d.val) * 8192 + j.val
      omega)]
  unfold arrG
  have hx : (fun g : Fin 128 => shapeCast S8x784x128 (m ((c0 : Thread nD τ).loc main_arg0)) shapeCasts_S8x16x49x128_S8x784x128
        (ix3 n (⟨49 * c.val + d.val, by omega⟩ : Fin 784) g))
      = fun g => m ((c0 : Thread nD τ).loc main_arg0) (ix4 n c d g) := funext fun g => by
    have hg := g.isLt
    exact shapeCast_apply _ shapeCasts_S8x16x49x128_S8x784x128 _ (ix4 n c d g) (by
      rw [Shape.rowMajor_val_four, Shape.rowMajor_val_three]
      show ((n.val * 16 + c.val) * 49 + d.val) * 128 + g.val = (n.val * 784 + (49 * c.val + d.val)) * 128 + g.val
      omega)
  have hb : (fun k : Fin 64 => shapeCast S1x64 (m ((c0 : Thread nD τ).loc main_arg3)) shapeCasts_S64_S1x64 (ix2 (0 : Fin 1) k))
      = fun k => m ((c0 : Thread nD τ).loc main_arg3) (ix1 k) := funext fun k => shapeCast_a_1a_apply _ _ _ k
  exact congrArg₂ (fun X B => Vlad.rowK eps one zero ninf X
      (fun k f => centK (m ((c0 : Thread nD τ).loc main_arg1)) (m ((c0 : Thread nD τ).loc main_arg4)) (ix3 n k f))
      (fun k f => m ((c0 : Thread nD τ).loc main_arg2) (ix2 k f)) B (Vlad.laneEquiv j).1 (Vlad.laneEquiv j).2) hx hb

/-- The kernel program's run, re-posted: every weakly fair execution terminates with the result array at `result` and
    the argument arrays unchanged. -/
theorem kernel_run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.RefRead.lean ====
/-
  The reference read at an index.

  At (n,c,d) the reference forms the unit row xn of x(n,c,d,·), its 64 scores against w plus b, their softmax, the
  residual family u k f = (xn f − cent(n,k,f)) · soft k with cent the gathered codebook, normalises each cluster's
  128 lanes, flattens (k,f) to lane 128·k + f, and normalises the 8192 lanes: the row spelling `rowR`.
  Every host sum starts from the zero word, which is the extended real 0.
-/
import proofs.«173652_j19292993093866_2_alg».proof.Proof.Gen.ReferenceIdeal.Read
import proofs.«173652_j19292993093866_2_alg».proof.Proof.Row
import Idealize.ShloMosaic.PureOps.Reduce

noncomputable section

namespace Cert.ReferenceIdeal.RefRead

open Cert.ReferenceIdeal Cert.ReferenceIdeal.Gen Cert.ReferenceIdeal.Read Idealize.ShloMosaic Idealize.ShloMosaic.ValueIdx

macro "idx1" : tactic => `(tactic| exact funext fun a => Fin.ext (by match a with | ⟨0, _⟩ => rfl))
macro "idx2" : tactic => `(tactic| exact funext fun a => Fin.ext (by match a with | ⟨0, _⟩ => rfl | ⟨1, _⟩ => rfl))
macro "idx3" : tactic => `(tactic| exact funext fun a => Fin.ext (by match a with | ⟨0, _⟩ => rfl | ⟨1, _⟩ => rfl | ⟨2, _⟩ => rfl))
macro "idx4" : tactic => `(tactic| exact funext fun a => Fin.ext (by match a with | ⟨0, _⟩ => rfl | ⟨1, _⟩ => rfl | ⟨2, _⟩ => rfl | ⟨3, _⟩ => rfl))
macro "idx5" : tactic => `(tactic| exact funext fun a => Fin.ext (by match a with | ⟨0, _⟩ => rfl | ⟨1, _⟩ => rfl | ⟨2, _⟩ => rfl | ⟨3, _⟩ => rfl | ⟨4, _⟩ => rfl))

abbrev eps : EReal := Ideal.ofBits .f32 0x2B8CBCCC#32
abbrev ninf : EReal := Ideal.ofBits .f32 0xFF800000#32

variable (x0 : (⟨S8x16x49x128, .f32⟩ : BufTy).Contents (Elt Ideal)) (x1 : (⟨S8x256x128, .f32⟩ : BufTy).Contents (Elt Ideal))
  (x2 : (⟨S64x128, .f32⟩ : BufTy).Contents (Elt Ideal)) (x3 : (⟨S64, .f32⟩ : BufTy).Contents (Elt Ideal))
  (x4 : (⟨S64, .i32⟩ : BufTy).Contents (Elt Ideal))

/-- The row of x at (n,c,d). -/
abbrev xrow (n : Fin 8) (c : Fin 16) (d : Fin 49) : Fin 128 → EReal := fun g => x0 (ix4 n c d g)

theorem ss0 (n : Fin 8) (c : Fin 16) (d : Fin 49) :
    val_main_call0_v1 x0 (ix3 n c d) = ∑ g : Fin 128, xrow x0 n c d g * xrow x0 n c d g := by
  rw [val_main_call0_v1_apply]
  show Ideal.ofBits .f32 0x00000000#32 + _ = _
  rw [Ideal.ofBits_zero_f32, zero_add]
  refine Finset.sum_congr rfl fun g _ => ?_
  rw [show idx_main_call0_v1 (ix3 n c d) g = ix4 n c d g by idx4]
  rfl

theorem xn_at (n : Fin 8) (c : Fin 16) (d : Fin 49) (f : Fin 128) :
    val_main_v4 x0 (ix4 n c d f) = Vlad.unit eps (xrow x0 n c d) f := by
  rw [val_main_v4_apply, val_main_v3_apply, show idx_main_v3 (ix4 n c d f) = ix4 n c d (0 : Fin 1) by idx4,
    val_main_v2_apply, val_main_v0_apply, val_main_call0_v2_apply,
    show idx_main_call0_v2 (ix4 n c d (0 : Fin 1)) = ix3 n c d by idx3, ss0, val_main_v1_apply]
  rfl

/-- The scores of row (n,c,d). -/
abbrev scores (n : Fin 8) (c : Fin 16) (d : Fin 49) : Fin 64 → EReal :=
  Vlad.logit (Vlad.unit eps (xrow x0 n c d)) (fun k f => x2 (ix2 k f)) (fun k => x3 (ix1 k))

theorem logit_at (n : Fin 8) (k : Fin 64) (c : Fin 16) (d : Fin 49) :
    val_main_v9 x0 x2 x3 (ix4 n k c d) = scores x0 x2 x3 n c d k := by
  rw [val_main_v9_apply, val_main_v6_apply, show idx_main_v6 (ix4 n k c d) = ix4 k n c d by idx4, val_main_v5_apply,
    val_main_v8_apply, show idx_main_v8 (ix4 n k c d) = ix4 (0 : Fin 1) k (0 : Fin 1) (0 : Fin 1) by idx4,
    val_main_v7_apply, show idx_main_v7 (ix4 (0 : Fin 1) k (0 : Fin 1) (0 : Fin 1)) = ix1 k by idx1]
  show (∑ f : Fin 128, _) + x3 (ix1 k) = _
  unfold scores Vlad.logit
  refine congrArg (· + x3 (ix1 k)) (Finset.sum_congr rfl fun f _ => ?_)
  rw [show lidx_main_v5 (ix4 k n c d) f = ix2 k f by idx2, show ridx_main_v5 (ix4 k n c d) f = ix4 n c d f by idx4,
    xn_at, mul_comm]

theorem max_at (n : Fin 8) (c : Fin 16) (d : Fin 49) :
    val_main_v12 x0 x2 x3 (ix3 n c d) = max ninf (Finset.univ.fold max ninf (scores x0 x2 x3 n c d)) := by
  rw [val_main_v12_apply, val_main_v11_apply]
  unfold val_main_v10
  rw [Host.reduce_eq_fold_single FloatOps.maximumf _ _ reducesTo_S8x64x16x49_S8x16x49_d1 (by decide) h_S_]
  refine congrArg (max ninf) (congrArg (fun g => Finset.univ.fold max ninf g) (funext fun k => ?_))
  exact (congrArg (val_main_v9 x0 x2 x3) (by idx4)).trans (logit_at x0 x2 x3 n k c d)

/-- The soft assignment of row (n,c,d). -/
abbrev softRow (n : Fin 8) (c : Fin 16) (d : Fin 49) : Fin 64 → EReal := Vlad.softmax ninf (scores x0 x2 x3 n c d)

theorem soft_at (n : Fin 8) (k : Fin 64) (c : Fin 16) (d : Fin 49) :
    val_main_v20 x0 x2 x3 (ix4 n k c d) = softRow x0 x2 x3 n c d k := by
  have hM : ∀ j : Fin 64, val_main_v14 x0 x2 x3 (ix4 n j c d) = max ninf (Finset.univ.fold max ninf (scores x0 x2 x3 n c d)) :=
    fun j => by
      rw [val_main_v14_apply, show idx_main_v14 (ix4 n j c d) = ix4 n (0 : Fin 1) c d by idx4, val_main_v13_apply,
        show idx_main_v13 (ix4 n (0 : Fin 1) c d) = ix3 n c d by idx3, max_at]
  have hE : ∀ j : Fin 64, val_main_v16 x0 x2 x3 (ix4 n j c d)
      = Ideal.exp (scores x0 x2 x3 n c d j - max ninf (Finset.univ.fold max ninf (scores x0 x2 x3 n c d))) := fun j => by
    rw [val_main_v16_apply, val_main_v15_apply, hM, logit_at]
    rfl
  rw [val_main_v20_apply, hE, val_main_v19_apply, show idx_main_v19 (ix4 n k c d) = ix4 n (0 : Fin 1) c d by idx4,
    val_main_v18_apply, show idx_main_v18 (ix4 n (0 : Fin 1) c d) = ix3 n c d by idx3, val_main_v17_apply]
  show Ideal.div _ (Ideal.ofBits .f32 0x00000000#32 + _) = _
  rw [Ideal.ofBits_zero_f32, zero_add]
  unfold softRow Vlad.softmax
  refine congrArg (Ideal.div _) (Finset.sum_congr rfl fun j _ => ?_)
  rw [show idx_main_v17 (ix3 n c d) j = ix4 n j c d by idx4, hE]

/-- The gathered codebook. -/
abbrev cent : S8x64x128.Idx → EReal := val_main_v27 x1 x4

/-- The residual family of row (n,c,d). -/
abbrev U (n : Fin 8) (c : Fin 16) (d : Fin 49) : Fin 64 → Fin 128 → EReal :=
  Vlad.res (Vlad.unit eps (xrow x0 n c d)) (fun k f => cent x1 x4 (ix3 n k f)) (softRow x0 x2 x3 n c d)

theorem res_at (n : Fin 8) (c : Fin 16) (d : Fin 49) (k : Fin 64) (f : Fin 128) :
    val_main_v36 x0 x1 x2 x3 x4 (ix5 n c d k f) = U x0 x1 x2 x3 x4 n c d k f := by
  rw [val_main_v36_apply, show idx_main_v36 (ix5 n c d k f) = ix5 n k c d f by idx5,
    val_main_v35_apply, val_main_v32_apply, val_main_v30_apply,
    show idx_main_v30 (ix5 n k c d f) = ix5 n (0 : Fin 1) c d f by idx5, val_main_v28_apply,
    show idx_main_v28 (ix5 n (0 : Fin 1) c d f) = ix4 n c d f by idx4,
    val_main_v31_apply, show idx_main_v31 (ix5 n k c d f) = ix5 n k (0 : Fin 1) (0 : Fin 1) f by idx5, val_main_v29_apply,
    show idx_main_v29 (ix5 n k (0 : Fin 1) (0 : Fin 1) f) = ix3 n k f by idx3,
    val_main_v34_apply, show idx_main_v34 (ix5 n k c d f) = ix5 n k c d (0 : Fin 1) by idx5, val_main_v33_apply,
    show idx_main_v33 (ix5 n k c d (0 : Fin 1)) = ix4 n k c d by idx4, xn_at, soft_at]
  rfl

theorem den_at (n : Fin 8) (c : Fin 16) (d : Fin 49) (k : Fin 64) :
    val_main_v39 x0 x1 x2 x3 x4 (ix5 n c d k (0 : Fin 1)) = max (Vlad.nrm (U x0 x1 x2 x3 x4 n c d) k) eps := by
  rw [val_main_v39_apply, val_main_v37_apply, val_main_call1_v2_apply,
    show idx_main_call1_v2 (ix5 n c d k (0 : Fin 1)) = ix4 n c d k by idx4, val_main_call1_v1_apply, val_main_v38_apply]
  show max (Ideal.sqrt (Ideal.ofBits .f32 0x00000000#32 + _)) eps = _
  rw [Ideal.ofBits_zero_f32, zero_add]
  unfold Vlad.nrm
  refine congrArg (fun s => max (Ideal.sqrt s) eps) (Finset.sum_congr rfl fun f _ => ?_)
  rw [show idx_main_call1_v1 (ix4 n c d k) f = ix5 n c d k f by idx5, val_main_call1_v0_apply, res_at]
  rfl

theorem vlad_at (n : Fin 8) (c : Fin 16) (d : Fin 49) (k : Fin 64) (f : Fin 128) :
    val_main_v41 x0 x1 x2 x3 x4 (ix5 n c d k f) = Vlad.vlad eps (U x0 x1 x2 x3 x4 n c d) k f := by
  rw [val_main_v41_apply, res_at, val_main_v40_apply,
    show idx_main_v40 (ix5 n c d k f) = ix5 n c d k (0 : Fin 1) by idx5, den_at]
  rfl

theorem flat_at (n : Fin 8) (c : Fin 16) (d : Fin 49) (j : Fin 8192) :
    val_main_v42 x0 x1 x2 x3 x4 (ix4 n c d j)
      = Vlad.vlad eps (U x0 x1 x2 x3 x4 n c d) (Vlad.laneEquiv j).1 (Vlad.laneEquiv j).2 := by
  have hn := n.isLt; have hc := c.isLt; have hd := d.isLt; have hj := j.isLt
  rw [val_main_v42_apply, show idx_main_v42 (ix4 n c d j) = ix5 n c d (Vlad.laneEquiv j).1 (Vlad.laneEquiv j).2 from
    funext fun a => Fin.ext (by
      match a with
      | ⟨0, _⟩ => show (((n.val * 16 + c.val) * 49 + d.val) * 8192 + j.val) / 6422528 = n.val; omega
      | ⟨1, _⟩ => show (((n.val * 16 + c.val) * 49 + d.val) * 8192 + j.val) / 401408 % 16 = c.val; omega
      | ⟨2, _⟩ => show (((n.val * 16 + c.val) * 49 + d.val) * 8192 + j.val) / 8192 % 49 = d.val; omega
      | ⟨3, _⟩ => show (((n.val * 16 + c.val) * 49 + d.val) * 8192 + j.val) / 128 % 64 = j.val / 128; omega
      | ⟨4, _⟩ => show (((n.val * 16 + c.val) * 49 + d.val) * 8192 + j.val) % 128 = j.val % 128; omega),
    vlad_at]

/-- The reference's result at (n,c,d,j): the reference's row spelling at cluster j / 128, lane j % 128. -/
theorem ref_at (n : Fin 8) (c : Fin 16) (d : Fin 49) (j : Fin 8192) :
    val_main_v47 x0 x1 x2 x3 x4 (ix4 n c d j)
      = Vlad.rowR eps 0 ninf (xrow x0 n c d) (fun k f => cent x1 x4 (ix3 n k f)) (fun k f => x2 (ix2 k f))
          (fun k => x3 (ix1 k)) (Vlad.laneEquiv j).1 (Vlad.laneEquiv j).2 := by
  rw [val_main_v47_apply, flat_at, val_main_v46_apply, show idx_main_v46 (ix4 n c d j) = ix4 n c d (0 : Fin 1) by idx4,
    val_main_v45_apply, val_main_v43_apply, val_main_call2_v2_apply,
    show idx_main_call2_v2 (ix4 n c d (0 : Fin 1)) = ix3 n c d by idx3, val_main_call2_v1_apply, val_main_v44_apply]
  show Ideal.div _ (max (Ideal.sqrt (Ideal.ofBits .f32 0x00000000#32 + _)) eps) = _
  rw [Ideal.ofBits_zero_f32]
  unfold Vlad.rowR Vlad.outR
  refine congrArg (fun s => Ideal.div _ (max (Ideal.sqrt (0 + s)) eps)) ?_
  rw [← Vlad.sum_lanes (fun k f => Vlad.vlad eps (U x0 x1 x2 x3 x4 n c d) k f * Vlad.vlad eps (U x0 x1 x2 x3 x4 n c d) k f)]
  refine Finset.sum_congr rfl fun j' _ => ?_
  rw [show idx_main_call2_v1 (ix3 n c d) j' = ix4 n c d j' by idx4, val_main_call2_v0_apply, flat_at]
  rfl

end Cert.ReferenceIdeal.RefRead

end
-- ==== Proof.Finite.lean ====
/-
  From the precondition to real entries.

  The precondition says, of each of the four float inputs, that every entry's absolute value compares below +∞
  (a conjunction of four "all" reductions that comes out 1). An extended real whose absolute value is below +∞ is a
  real number: −∞ and +∞ both have absolute value +∞.
-/
import proofs.«173652_j19292993093866_2_alg».proof.Pre_finite_inputs
import proofs.«173652_j19292993093866_2_alg».proof.Proof.Law
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.LibReals

variable [Cert.Pre_finite_inputs.Facts]

instance : Subsingleton S_.Idx := ⟨fun a b => funext fun d => d.elim0⟩

/-- The word the entries are compared with is +∞. -/
theorem pinf_eq : Ideal.ofBits .f32 0x7F800000#32 = ⊤ := by simp [Ideal.ofBits, Ideal.ieee]

/-- An extended real whose absolute value is below +∞ is a real. -/
theorem isR_of_abs_lt (x : EReal) (h : Ideal.cmp .olt (max x (-x)) (Ideal.ofBits .f32 0x7F800000#32) = 1#1) : IsR x := by
  rw [pinf_eq] at h
  induction x using EReal.rec with
  | bot => simp [Ideal.cmp] at h
  | coe r => exact ⟨r, rfl⟩
  | top => simp [Ideal.cmp] at h

theorem finite_of_pre (a0 : FVec Ideal S8x16x49x128 .f32) (a1 : FVec Ideal S8x256x128 .f32) (a2 : FVec Ideal S64x128 .f32)
    (a3 : FVec Ideal S64 .f32) (a4 : IVec S64 32) (h : fn (F := Ideal) a0 a1 a2 a3 a4 = fun _ => 1#1) :
    (∀ i, IsR (a0 i)) ∧ (∀ i, IsR (a1 i)) ∧ (∀ i, IsR (a2 i)) ∧ (∀ i, IsR (a3 i)) := by
  have h0 := congrFun h ValueIdx.ix0
  dsimp only [fn, fn_part1] at h0
  have h0' : IntOp.andi _ _ = 1#1 := h0
  obtain ⟨h012, h3⟩ := IntOp.andi_eq_one.1 h0'
  have h012' : IntOp.andi _ _ = 1#1 := h012
  obtain ⟨h01, h2⟩ := IntOp.andi_eq_one.1 h012'
  have h01' : IntOp.andi _ _ = 1#1 := h01
  obtain ⟨hh0, hh1⟩ := IntOp.andi_eq_one.1 h01'
  refine ⟨fun i => isR_of_abs_lt _ ?_, fun i => isR_of_abs_lt _ ?_, fun i => isR_of_abs_lt _ ?_, fun i => isR_of_abs_lt _ ?_⟩
  · exact Host.reduce_andi_all _ _ _ _ ValueIdx.ix0 hh0 i
  · exact Host.reduce_andi_all _ _ _ _ ValueIdx.ix0 hh1 i
  · exact Host.reduce_andi_all _ _ _ _ ValueIdx.ix0 h2 i
  · exact Host.reduce_andi_all _ _ _ _ ValueIdx.ix0 h3 i

end Cert.Finite

end
-- ==== Proof.Consts.lean ====
/-
  The float words the two programs share, read as extended reals:
  0x2B8CBCCC (the f32 nearest 1e-12) is the positive real 9223372 · 2⁻⁶³, and 0xFF800000 is −∞.
-/
import proofs.«173652_j19292993093866_2_alg».proof.Proof.Law
import Idealize.ShloMosaic.Lib.IdealHost

noncomputable section

namespace Cert.Vlad

open Idealize.ShloMosaic Cert.LibReals

/-- ε is a positive real. -/
theorem eps_isP : IsP (Ideal.ofBits .f32 0x2B8CBCCC#32) := by
  have h : Ideal.ofBits .f32 0x2B8CBCCC#32 = (((9223372 : ℝ) * (2 : ℝ) ^ (-63 : ℤ) : ℝ) : EReal) := by
    simp [Ideal.ofBits, Ideal.ieee, -EReal.coe_mul]
  exact ⟨_, by positivity, h⟩

/-- The word the maxima are folded from is −∞. -/
theorem ninf_eq : Ideal.ofBits .f32 0xFF800000#32 = ⊥ := by
  simp [Ideal.ofBits, Ideal.ieee]

end Cert.Vlad

end
-- ==== Proof.lean ====
/-
  Soft-assignment residuals, normalised twice: the tiled kernel against the whole-array reference.

  For every (n,c,d) both programs form the unit row xn of x(n,c,d,·), its 64 scores against the weights plus the
  bias, their softmax, and the residual family u k f = (xn f − cent(n,k,f)) · soft k over the gathered codebook;
  each cluster's 128 residuals are divided by the larger of their Euclidean norm n k and ε. The reference then
  divides the 8192 numbers by the larger of THEIR Euclidean norm and ε. The kernel never forms that second norm:
  it adds up (n k / max (n k, ε))² over the clusters, which is the same number because the squares of a cluster's
  normalised residuals sum to (n k)² / max (n k, ε)², and multiplies by the reciprocal. Both identities are laws of
  the real numbers, so the inputs' finiteness is used: every intermediate value is then a real.

  The kernel side: the body's 64 stores are one generic block per cluster (Pieces, KernelRead, KernelHead), the output
  block is one index-by-index function of the input blocks (KernelBlock), the 16 blocks tile the output array
  (KernelArray), and the host operations around the region only re-label rows (KernelResult). The reference side is
  read one operation at a time (RefRead). The laws are in Law and Row, the literal words in Consts, the precondition
  in Finite.
-/
import proofs.«173652_j19292993093866_2_alg».proof.Defs
import proofs.«173652_j19292993093866_2_alg».proof.Proof.Gen.Kernel
import proofs.«173652_j19292993093866_2_alg».proof.Proof.Gen.Kernel.Skeleton
import proofs.«173652_j19292993093866_2_alg».proof.Proof.Gen.Kernel.Launch
import proofs.«173652_j19292993093866_2_alg».proof.Proof.Gen.Kernel.Points
import proofs.«173652_j19292993093866_2_alg».proof.Proof.Gen.Kernel.Frame
import proofs.«173652_j19292993093866_2_alg».proof.Proof.Gen.KernelIdeal
import proofs.«173652_j19292993093866_2_alg».proof.Proof.Gen.KernelIdeal.Skeleton
import proofs.«173652_j19292993093866_2_alg».proof.Proof.Gen.KernelIdeal.Launch
import proofs.«173652_j19292993093866_2_alg».proof.Proof.Gen.KernelIdeal.Points
import proofs.«173652_j19292993093866_2_alg».proof.Proof.Gen.KernelIdeal.Frame
import proofs.«173652_j19292993093866_2_alg».proof.Proof.Gen.ReferenceIdeal
import proofs.«173652_j19292993093866_2_alg».proof.Proof.Gen.Pre_finite_inputs
import proofs.«173652_j19292993093866_2_alg».proof.Proof.Gen.ReferenceIdeal.Run
import proofs.«173652_j19292993093866_2_alg».proof.Proof.Gen.ReferenceIdeal.Read
import proofs.«173652_j19292993093866_2_alg».proof.Proof.KernelResult
import proofs.«173652_j19292993093866_2_alg».proof.Proof.RefRead
import proofs.«173652_j19292993093866_2_alg».proof.Proof.Finite
import proofs.«173652_j19292993093866_2_alg».proof.Proof.Consts
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- At the exact values, from memories agreeing on the arguments, both programs end with one result: entry
    (n,c,d,j) is the row spelling of x(n,c,d,·) at cluster j / 128, lane j % 128, and the kernel's spelling of a row
    of real inputs is the reference's. -/
theorem algebraic : Cert.algebraic_KernelIdeal_ReferenceIdeal := by
  intro m ρ m' ρ' hpre hagree
  refine ⟨fun c => Cert.KernelIdeal.Arr.result m c, Cert.KernelIdeal.Arr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq]
  obtain ⟨a0, a1, a2, a3, a4⟩ := hagree c
  rw [a0, a1, a2, a3, a4]
  obtain ⟨f0, f1, f2, f3⟩ := Cert.Finite.finite_of_pre _ _ _ _ _ (hpre c)
  funext i
  obtain ⟨n, cc, d, j, rfl⟩ : ∃ (n : Fin 8) (cc : Fin 16) (d : Fin 49) (j : Fin 8192), i = ix4 n cc d j :=
    ⟨i 0, i 1, i 2, i 3, eq_ix4 i⟩
  rw [Cert.ReferenceIdeal.RefRead.ref_at]
  refine Eq.trans ?_ (Cert.KernelIdeal.Arr.result_at m c n cc d j).symm
  exact (Cert.Vlad.rowK_eq_rowR Cert.Vlad.eps_isP Ideal.ofBits_one_f32 Ideal.ofBits_zero_f32 Cert.Vlad.ninf_eq
    (fun g => f0 _) (fun k f => f1 _) (fun k f => f2 _) (fun k => f3 _) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
